-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x14 : Shape := ⟨2, ![524288, 14]⟩
abbrev S14x14 : Shape := ⟨2, ![14, 14]⟩
abbrev S14 : Shape := ⟨1, ![14]⟩
abbrev S2x14 : Shape := ⟨2, ![2, 14]⟩
abbrev S2 : Shape := ⟨1, ![2]⟩
abbrev S_ : Shape := ⟨0, ![]⟩

class Facts : Prop where
  bcast_S_S524288x14 : S_.BroadcastsInDim S524288x14 (![] : Fin 0 → Fin S524288x14.rank)
  reducesTo_S524288x14_S_d0_1 : S524288x14.ReducesTo [0, 1] S_
  h_S_ : 0 < S_.numel
  bcast_S_S14x14 : S_.BroadcastsInDim S14x14 (![] : Fin 0 → Fin S14x14.rank)
  reducesTo_S14x14_S_d0_1 : S14x14.ReducesTo [0, 1] S_
  bcast_S_S14 : S_.BroadcastsInDim S14 (![] : Fin 0 → Fin S14.rank)
  reducesTo_S14_S_d0 : S14.ReducesTo [0] S_
  bcast_S_S2x14 : S_.BroadcastsInDim S2x14 (![] : Fin 0 → Fin S2x14.rank)
  reducesTo_S2x14_S_d0_1 : S2x14.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S2x14 1) : IVec S_ 1 :=
  let main_c_5 : IVec S_ 1 := constantI S_ 1 1#1
  let main_v17 : IVec S_ 1 := (fun x v => Host.reduce IntOp.andi x v reducesTo_S2x14_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S524288x14 .f32) (main_arg1 : FVec F S14x14 .f32) (main_arg2 : FVec F S14 .f32) (main_arg3 : FVec F S2x14 .f32) (main_arg4 : FVec F S2 .f32) : IVec S_ 1 :=
  let main_v0 : FVec F S524288x14 .f32 := Host.absf main_arg0
  let main_cst : FVec F S_ .f32 := constant S_ .f32 0x7F800000#32
  let main_v1 : FVec F S524288x14 .f32 := broadcastInDim S524288x14 ![] bcast_S_S524288x14 main_cst
  let main_v2 : IVec S524288x14 1 := cmpf .olt main_v0 main_v1
  let main_c : IVec S_ 1 := constantI S_ 1 1#1
  let main_v3 : IVec S_ 1 := (fun x v => Host.reduce IntOp.andi x v reducesTo_S524288x14_S_d0_1 h_S_) main_v2 main_c
  let main_v4 : FVec F S14x14 .f32 := Host.absf main_arg1
  let main_cst_0 : FVec F S_ .f32 := constant S_ .f32 0x7F800000#32
  let main_v5 : FVec F S14x14 .f32 := broadcastInDim S14x14 ![] bcast_S_S14x14 main_cst_0
  let main_v6 : IVec S14x14 1 := cmpf .olt main_v4 main_v5
  let main_c_1 : IVec S_ 1 := constantI S_ 1 1#1
  let main_v7 : IVec S_ 1 := (fun x v => Host.reduce IntOp.andi x v reducesTo_S14x14_S_d0_1 h_S_) main_v6 main_c_1
  let main_v8 : IVec S_ 1 := andi main_v3 main_v7
  let main_v9 : FVec F S14 .f32 := Host.absf main_arg2
  let main_cst_2 : FVec F S_ .f32 := constant S_ .f32 0x7F800000#32
  let main_v10 : FVec F S14 .f32 := broadcastInDim S14 ![] bcast_S_S14 main_cst_2
  let main_v11 : IVec S14 1 := cmpf .olt main_v9 main_v10
  let main_c_3 : IVec S_ 1 := constantI S_ 1 1#1
  let main_v12 : IVec S_ 1 := (fun x v => Host.reduce IntOp.andi x v reducesTo_S14_S_d0 h_S_) main_v11 main_c_3
  let main_v13 : IVec S_ 1 := andi main_v8 main_v12
  let main_v14 : FVec F S2x14 .f32 := Host.absf main_arg3
  let main_cst_4 : FVec F S_ .f32 := constant S_ .f32 0x7F800000#32
  let main_v15 : FVec F S2x14 .f32 := broadcastInDim S2x14 ![] bcast_S_S2x14 main_cst_4
  let main_v16 : IVec S2x14 1 := cmpf .olt main_v14 main_v15
  fn_part1 (F := F) main_arg4 main_v13 main_v16
-- ==== Kernel.lean ====
abbrev S524288x14 : Shape := ⟨2, ![524288, 14]⟩
abbrev S14x14 : Shape := ⟨2, ![14, 14]⟩
abbrev S14 : Shape := ⟨1, ![14]⟩
abbrev S2x14 : Shape := ⟨2, ![2, 14]⟩
abbrev S2 : Shape := ⟨1, ![2]⟩
abbrev S32768x224 : Shape := ⟨2, ![32768, 224]⟩
abbrev S16x16 : Shape := ⟨2, ![16, 16]⟩
abbrev S_ : Shape := ⟨0, ![]⟩
abbrev S16x1x16x1 : Shape := ⟨4, ![16, 1, 16, 1]⟩
abbrev S1x14x1x14 : Shape := ⟨4, ![1, 14, 1, 14]⟩
abbrev S16x14x16x14 : Shape := ⟨4, ![16, 14, 16, 14]⟩
abbrev S224x224 : Shape := ⟨2, ![224, 224]⟩
abbrev S14x2 : Shape := ⟨2, ![14, 2]⟩
abbrev S1x14x1x2 : Shape := ⟨4, ![1, 14, 1, 2]⟩
abbrev S16x14x16x2 : Shape := ⟨4, ![16, 14, 16, 2]⟩
abbrev S224x32 : Shape := ⟨2, ![224, 32]⟩
abbrev S1x14 : Shape := ⟨2, ![1, 14]⟩
abbrev S16x14 : Shape := ⟨2, ![16, 14]⟩
abbrev S224 : Shape := ⟨1, ![224]⟩
abbrev S1x224 : Shape := ⟨2, ![1, 224]⟩
abbrev S1x2 : Shape := ⟨2, ![1, 2]⟩
abbrev S16x2 : Shape := ⟨2, ![16, 2]⟩
abbrev S32 : Shape := ⟨1, ![32]⟩
abbrev S1x32 : Shape := ⟨2, ![1, 32]⟩
abbrev S32768x32 : Shape := ⟨2, ![32768, 32]⟩
abbrev S2048x224 : Shape := ⟨2, ![2048, 224]⟩
abbrev S2048x32 : Shape := ⟨2, ![2048, 32]⟩
abbrev S524288x2 : Shape := ⟨2, ![524288, 2]⟩

abbrev nBuf : Space → Nat
  | .hbm => 37
  | .vmem => 8
  | .smem => 0
  | _ => 0

abbrev bufTy : (tb : Table) → Fin (tcTables nBuf tb) → BufTy
  | .hbm, ⟨0, _⟩ => ⟨S524288x14, .f32⟩
  | .hbm, ⟨1, _⟩ => ⟨S14x14, .f32⟩
  | .hbm, ⟨2, _⟩ => ⟨S14, .f32⟩
  | .hbm, ⟨3, _⟩ => ⟨S2x14, .f32⟩
  | .hbm, ⟨4, _⟩ => ⟨S2, .f32⟩
  | .hbm, ⟨5, _⟩ => ⟨S32768x224, .f32⟩
  | .hbm, ⟨6, _⟩ => ⟨S16x16, .i32⟩
  | .hbm, ⟨7, _⟩ => ⟨S16x16, .i32⟩
  | .hbm, ⟨8, _⟩ => ⟨S_, .i32⟩
  | .hbm, ⟨9, _⟩ => ⟨S16x16, .i32⟩
  | .hbm, ⟨10, _⟩ => ⟨S16x16, .i32⟩
  | .hbm, ⟨11, _⟩ => ⟨S16x16, .i1⟩
  | .hbm, ⟨12, _⟩ => ⟨S16x16, .f32⟩
  | .hbm, ⟨13, _⟩ => ⟨S16x1x16x1, .f32⟩
  | .hbm, ⟨14, _⟩ => ⟨S14x14, .f32⟩
  | .hbm, ⟨15, _⟩ => ⟨S1x14x1x14, .f32⟩
  | .hbm, ⟨16, _⟩ => ⟨S16x14x16x14, .f32⟩
  | .hbm, ⟨17, _⟩ => ⟨S16x14x16x14, .f32⟩
  | .hbm, ⟨18, _⟩ => ⟨S16x14x16x14, .f32⟩
  | .hbm, ⟨19, _⟩ => ⟨S224x224, .f32⟩
  | .hbm, ⟨20, _⟩ => ⟨S16x1x16x1, .f32⟩
  | .hbm, ⟨21, _⟩ => ⟨S14x2, .f32⟩
  | .hbm, ⟨22, _⟩ => ⟨S1x14x1x2, .f32⟩
  | .hbm, ⟨23, _⟩ => ⟨S16x14x16x2, .f32⟩
  | .hbm, ⟨24, _⟩ => ⟨S16x14x16x2, .f32⟩
  | .hbm, ⟨25, _⟩ => ⟨S16x14x16x2, .f32⟩
  | .hbm, ⟨26, _⟩ => ⟨S224x32, .f32⟩
  | .hbm, ⟨27, _⟩ => ⟨S1x14, .f32⟩
  | .hbm, ⟨28, _⟩ => ⟨S16x14, .f32⟩
  | .hbm, ⟨29, _⟩ => ⟨S224, .f32⟩
  | .hbm, ⟨30, _⟩ => ⟨S1x224, .f32⟩
  | .hbm, ⟨31, _⟩ => ⟨S1x2, .f32⟩
  | .hbm, ⟨32, _⟩ => ⟨S16x2, .f32⟩
  | .hbm, ⟨33, _⟩ => ⟨S32, .f32⟩
  | .hbm, ⟨34, _⟩ => ⟨S1x32, .f32⟩
  | .hbm, ⟨35, _⟩ => ⟨S32768x32, .f32⟩
  | .hbm, ⟨36, _⟩ => ⟨S524288x2, .f32⟩
  | .local _ .vmem, ⟨0, _⟩ => ⟨S224x224, .f32⟩
  | .local _ .vmem, ⟨1, _⟩ => ⟨S1x224, .f32⟩
  | .local _ .vmem, ⟨2, _⟩ => ⟨S224x32, .f32⟩
  | .local _ .vmem, ⟨3, _⟩ => ⟨S1x32, .f32⟩
  | .local _ .vmem, ⟨4, _⟩ => ⟨S2048x224, .f32⟩
  | .local _ .vmem, ⟨5, _⟩ => ⟨S2048x224, .f32⟩
  | .local _ .vmem, ⟨6, _⟩ => ⟨S2048x32, .f32⟩
  | .local _ .vmem, ⟨7, _⟩ => ⟨S2048x32, .f32⟩
  | _, _ => ⟨S524288x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S224x224 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S224x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S524288x14_S32768x224 : S524288x14.ShapeCasts S32768x224
  bcast_S_S16x16 : S_.BroadcastsInDim S16x16 (![] : Fin 0 → Fin S16x16.rank)
  bcast_S16x16_S16x1x16x1_0_2 : S16x16.BroadcastsInDim S16x1x16x1 (![0, 2] : Fin 2 → Fin S16x1x16x1.rank)
  transposes_S14x14_S14x14_1_0 : S14x14.Transposes [1, 0] S14x14
  bcast_S14x14_S1x14x1x14_1_3 : S14x14.BroadcastsInDim S1x14x1x14 (![1, 3] : Fin 2 → Fin S1x14x1x14.rank)
  bcast_S16x1x16x1_S16x14x16x14_0_1_2_3 : S16x1x16x1.BroadcastsInDim S16x14x16x14 (![0, 1, 2, 3] : Fin 4 → Fin S16x14x16x14.rank)
  bcast_S1x14x1x14_S16x14x16x14_0_1_2_3 : S1x14x1x14.BroadcastsInDim S16x14x16x14 (![0, 1, 2, 3] : Fin 4 → Fin S16x14x16x14.rank)
  shapeCasts_S16x14x16x14_S224x224 : S16x14x16x14.ShapeCasts S224x224
  transposes_S2x14_S14x2_1_0 : S2x14.Transposes [1, 0] S14x2
  bcast_S14x2_S1x14x1x2_1_3 : S14x2.BroadcastsInDim S1x14x1x2 (![1, 3] : Fin 2 → Fin S1x14x1x2.rank)
  bcast_S16x1x16x1_S16x14x16x2_0_1_2_3 : S16x1x16x1.BroadcastsInDim S16x14x16x2 (![0, 1, 2, 3] : Fin 4 → Fin S16x14x16x2.rank)
  bcast_S1x14x1x2_S16x14x16x2_0_1_2_3 : S1x14x1x2.BroadcastsInDim S16x14x16x2 (![0, 1, 2, 3] : Fin 4 → Fin S16x14x16x2.rank)
  shapeCasts_S16x14x16x2_S224x32 : S16x14x16x2.ShapeCasts S224x32
  shapeCasts_S14_S1x14 : S14.ShapeCasts S1x14
  bcast_S1x14_S16x14_0_1 : S1x14.BroadcastsInDim S16x14 (![0, 1] : Fin 2 → Fin S16x14.rank)
  shapeCasts_S16x14_S224 : S16x14.ShapeCasts S224
  shapeCasts_S224_S1x224 : S224.ShapeCasts S1x224
  shapeCasts_S2_S1x2 : S2.ShapeCasts S1x2
  bcast_S1x2_S16x2_0_1 : S1x2.BroadcastsInDim S16x2 (![0, 1] : Fin 2 → Fin S16x2.rank)
  shapeCasts_S16x2_S32 : S16x2.ShapeCasts S32
  shapeCasts_S32_S1x32 : S32.ShapeCasts S1x32
  inb_S2048x224_S2048x224_0_0 : ∀ a, (![0, 0] : Fin 2 → Nat) a + S2048x224.size a ≤ S2048x224.size a
  h_S2048x224 : 0 < S2048x224.numel
  shapeCasts_S2048x224_S2048x224 : S2048x224.ShapeCasts S2048x224
  inb_S224x224_S224x224_0_0 : ∀ a, (![0, 0] : Fin 2 → Nat) a + S224x224.size a ≤ S224x224.size a
  h_S224x224 : 0 < S224x224.numel
  shapeCasts_S224x224_S224x224 : S224x224.ShapeCasts S224x224
  inb_S1x224_S1x224_0_0 : ∀ a, (![0, 0] : Fin 2 → Nat) a + S1x224.size a ≤ S1x224.size a
  h_S1x224 : 0 < S1x224.numel
  shapeCasts_S1x224_S1x224 : S1x224.ShapeCasts S1x224
  broadcasts_S1x224_S2048x224 : S1x224.Broadcasts S2048x224
  inb_S224x32_S224x32_0_0 : ∀ a, (![0, 0] : Fin 2 → Nat) a + S224x32.size a ≤ S224x32.size a
  h_S224x32 : 0 < S224x32.numel
  shapeCasts_S224x32_S224x32 : S224x32.ShapeCasts S224x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  shapeCasts_S32768x32_S524288x2 : S32768x32.ShapeCasts S524288x2
  dot_S2048x224_S224x224_S2048x224_1_0_0_1_n_n_wf : DotDims.WF S2048x224 S224x224 S2048x224 [1] [0] [0] [1] [] []
  dot_S2048x224_S224x32_S2048x32_1_0_0_1_n_n_wf : DotDims.WF S2048x224 S224x32 S2048x32 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S224x224.size a ≤ S224x224.size a
  hwx0_0 : ∀ i : grid0.Coords, EltTy.bits .f32 = 32 ∨ (Rect.block (s := S224x224) S224x224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x224.size a ≤ S1x224.size a
  hwx0_1 : ∀ i : grid0.Coords, EltTy.bits .f32 = 32 ∨ (Rect.block (s := S1x224) S1x224.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S224x32.size a ≤ S224x32.size a
  hwx0_2 : ∀ i : grid0.Coords, EltTy.bits .f32 = 32 ∨ (Rect.block (s := S224x32) S224x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x224.size a ≤ S32768x224.size a
  hwx0_4 : ∀ i : grid0.Coords, EltTy.bits .f32 = 32 ∨ (Rect.block (s := S32768x224) S2048x224.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x32.size a ≤ S32768x32.size a
  hwx0_5 : ∀ i : grid0.Coords, EltTy.bits .f32 = 32 ∨ (Rect.block (s := S32768x32) S2048x32.size (cc0_transform_5 i) (hinb0_5 i)).WholeWords (EltTy.packing .f32)

variable [Facts₀]

def dot_S2048x224_S224x224_S2048x224_1_0_0_1_n_n : DotDims S2048x224 S224x224 S2048x224 where
  lhsContracting := [1]
  rhsContracting := [0]
  lhsNonContracting := [0]
  rhsNonContracting := [1]
  lhsBatch := []
  rhsBatch := []
  wf := dot_S2048x224_S224x224_S2048x224_1_0_0_1_n_n_wf
def dot_S2048x224_S224x32_S2048x32_1_0_0_1_n_n : DotDims S2048x224 S224x32 S2048x32 where
  lhsContracting := [1]
  rhsContracting := [0]
  lhsNonContracting := [0]
  rhsNonContracting := [1]
  lhsBatch := []
  rhsBatch := []
  wf := dot_S2048x224_S224x32_S2048x32_1_0_0_1_n_n_wf

abbrev win0_0 : Pipeline.Window sig grid0 :=
  Pipeline.Window.ofSpec (Memref.whole main_v13) S224x224.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x224.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S224x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x224.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29) S2048x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S524288x14 : Shape := ⟨2, ![524288, 14]⟩
abbrev S14x14 : Shape := ⟨2, ![14, 14]⟩
abbrev S14 : Shape := ⟨1, ![14]⟩
abbrev S2x14 : Shape := ⟨2, ![2, 14]⟩
abbrev S2 : Shape := ⟨1, ![2]⟩
abbrev S14x524288 : Shape := ⟨2, ![14, 524288]⟩
abbrev S_ : Shape := ⟨0, ![]⟩
abbrev S16x15 : Shape := ⟨2, ![16, 15]⟩
abbrev S1 : Shape := ⟨1, ![1]⟩
abbrev S2x524288 : Shape := ⟨2, ![2, 524288]⟩
abbrev S14x2048 : Shape := ⟨2, ![14, 2048]⟩
abbrev S2x2048 : Shape := ⟨2, ![2, 2048]⟩
abbrev S14x1 : Shape := ⟨2, ![14, 1]⟩
abbrev S2x1 : Shape := ⟨2, ![2, 1]⟩
abbrev S524288x2 : Shape := ⟨2, ![524288, 2]⟩

abbrev nBuf : Space → Nat
  | .hbm => 34
  | .vmem => 5
  | .smem => 0
  | _ => 0

abbrev bufTy : (tb : Table) → Fin (tcTables nBuf tb) → BufTy
  | .hbm, ⟨0, _⟩ => ⟨S524288x14, .f32⟩
  | .hbm, ⟨1, _⟩ => ⟨S14x14, .f32⟩
  | .hbm, ⟨2, _⟩ => ⟨S14, .f32⟩
  | .hbm, ⟨3, _⟩ => ⟨S2x14, .f32⟩
  | .hbm, ⟨4, _⟩ => ⟨S2, .f32⟩
  | .hbm, ⟨5, _⟩ => ⟨S14x524288, .f32⟩
  | .hbm, ⟨6, _⟩ => ⟨S_, .f32⟩
  | .hbm, ⟨7, _⟩ => ⟨S16x15, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S16x15, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S16x15, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S16x15, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S16x15, .f32⟩
  | .hbm, ⟨32, _⟩ => ⟨S2x524288, .f32⟩
  | .hbm, ⟨33, _⟩ => ⟨S524288x2, .f32⟩
  | .local _ .vmem, ⟨0, _⟩ => ⟨S16x15, .f32⟩
  | .local _ .vmem, ⟨1, _⟩ => ⟨S14x2048, .f32⟩
  | .local _ .vmem, ⟨2, _⟩ => ⟨S14x2048, .f32⟩
  | .local _ .vmem, ⟨3, _⟩ => ⟨S2x2048, .f32⟩
  | .local _ .vmem, ⟨4, _⟩ => ⟨S2x2048, .f32⟩
  | _, _ => ⟨S524288x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x15 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S14x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S524288x14_S14x524288_1_0 : S524288x14.Transposes [1, 0] S14x524288
  bcast_S_S16x15 : S_.BroadcastsInDim S16x15 (![] : Fin 0 → Fin S16x15.rank)
  bcast_S_S1 : S_.BroadcastsInDim S1 (![] : Fin 0 → Fin S1.rank)
  concatenates_S1_S1_S2_d0 : Shape.Concatenates [S1, S1] S2 0
  inb_S16x15_S14x14_0_0 : ∀ a, (![0, 0] : Fin 2 → Nat) a + S14x14.size a ≤ S16x15.size a
  h_S14x14 : 0 < S14x14.numel
  shapeCasts_S14x14_S14x14 : S14x14.ShapeCasts S14x14
  inb_S16x15_S14x1_0_14 : ∀ a, (![0, 14] : Fin 2 → Nat) a + S14x1.size a ≤ S16x15.size a
  h_S14x1 : 0 < S14x1.numel
  shapeCasts_S14x1_S14x1 : S14x1.ShapeCasts S14x1
  inb_S16x15_S2x14_14_0 : ∀ a, (![14, 0] : Fin 2 → Nat) a + S2x14.size a ≤ S16x15.size a
  h_S2x14 : 0 < S2x14.numel
  shapeCasts_S2x14_S2x14 : S2x14.ShapeCasts S2x14
  inb_S16x15_S2x1_14_14 : ∀ a, (![14, 14] : Fin 2 → Nat) a + S2x1.size a ≤ S16x15.size a
  h_S2x1 : 0 < S2x1.numel
  shapeCasts_S2x1_S2x1 : S2x1.ShapeCasts S2x1
  inb_S14x2048_S14x2048_0_0 : ∀ a, (![0, 0] : Fin 2 → Nat) a + S14x2048.size a ≤ S14x2048.size a
  h_S14x2048 : 0 < S14x2048.numel
  shapeCasts_S14x2048_S14x2048 : S14x2048.ShapeCasts S14x2048
  broadcasts_S14x1_S14x2048 : S14x1.Broadcasts S14x2048
  broadcasts_S2x1_S2x2048 : S2x1.Broadcasts S2x2048
  inb_S2x2048_S2x2048_0_0 : ∀ a, (![0, 0] : Fin 2 → Nat) a + S2x2048.size a ≤ S2x2048.size a
  h_S2x2048 : 0 < S2x2048.numel
  transposes_S2x524288_S524288x2_1_0 : S2x524288.Transposes [1, 0] S524288x2
  scatter_S16x15_S2_S14x14_01_n_01_0_wf : ScatterDims.WF S16x15 S2 S14x14 [0, 1] [] [0, 1] 0
  scatter_S16x15_S2_S14_0_1_01_0_wf : ScatterDims.WF S16x15 S2 S14 [0] [1] [0, 1] 0
  scatter_S16x15_S2_S2x14_01_n_01_0_wf : ScatterDims.WF S16x15 S2 S2x14 [0, 1] [] [0, 1] 0
  scatter_S16x15_S2_S2_0_1_01_0_wf : ScatterDims.WF S16x15 S2 S2 [0] [1] [0, 1] 0
  dot_S14x14_S14x2048_S14x2048_1_0_0_1_n_n_wf : DotDims.WF S14x14 S14x2048 S14x2048 [1] [0] [0] [1] [] []
  dot_S2x14_S14x2048_S2x2048_1_0_0_1_n_n_wf : DotDims.WF S2x14 S14x2048 S2x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x15.size a ≤ S16x15.size a
  hwx0_0 : ∀ i : grid0.Coords, EltTy.bits .f32 = 32 ∨ (Rect.block (s := S16x15) S16x15.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S14x2048.size a ≤ S14x524288.size a
  hwx0_1 : ∀ i : grid0.Coords, EltTy.bits .f32 = 32 ∨ (Rect.block (s := S14x524288) S14x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2048.size a ≤ S2x524288.size a
  hwx0_2 : ∀ i : grid0.Coords, EltTy.bits .f32 = 32 ∨ (Rect.block (s := S2x524288) S2x2048.size (cc0_transform_2 i) (hinb0_2 i)).WholeWords (EltTy.packing .f32)

variable [Facts₀]

def scatter_S16x15_S2_S14x14_01_n_01_0 : ScatterDims S16x15 S2 S14x14 where
  updateWindowDims := [0, 1]
  insertedWindowDims := []
  scatterDimsToOperandDims := [0, 1]
  indexVectorDim := 0
  wf := scatter_S16x15_S2_S14x14_01_n_01_0_wf
def scatter_S16x15_S2_S14_0_1_01_0 : ScatterDims S16x15 S2 S14 where
  updateWindowDims := [0]
  insertedWindowDims := [1]
  scatterDimsToOperandDims := [0, 1]
  indexVectorDim := 0
  wf := scatter_S16x15_S2_S14_0_1_01_0_wf
def scatter_S16x15_S2_S2x14_01_n_01_0 : ScatterDims S16x15 S2 S2x14 where
  updateWindowDims := [0, 1]
  insertedWindowDims := []
  scatterDimsToOperandDims := [0, 1]
  indexVectorDim := 0
  wf := scatter_S16x15_S2_S2x14_01_n_01_0_wf
def scatter_S16x15_S2_S2_0_1_01_0 : ScatterDims S16x15 S2 S2 where
  updateWindowDims := [0]
  insertedWindowDims := [1]
  scatterDimsToOperandDims := [0, 1]
  indexVectorDim := 0
  wf := scatter_S16x15_S2_S2_0_1_01_0_wf
def dot_S14x14_S14x2048_S14x2048_1_0_0_1_n_n : DotDims S14x14 S14x2048 S14x2048 where
  lhsContracting := [1]
  rhsContracting := [0]
  lhsNonContracting := [0]
  rhsNonContracting := [1]
  lhsBatch := []
  rhsBatch := []
  wf := dot_S14x14_S14x2048_S14x2048_1_0_0_1_n_n_wf
def dot_S2x14_S14x2048_S2x2048_1_0_0_1_n_n : DotDims S2x14 S14x2048 S2x2048 where
  lhsContracting := [1]
  rhsContracting := [0]
  lhsNonContracting := [0]
  rhsNonContracting := [1]
  lhsBatch := []
  rhsBatch := []
  wf := dot_S2x14_S14x2048_S2x2048_1_0_0_1_n_n_wf

abbrev win0_0 : Pipeline.Window sig grid0 :=
  Pipeline.Window.ofSpec (Memref.whole main_v17) S16x15.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S14x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.Spec.lean ====
/-
  The two-layer perceptron both programs compute, entry by entry, and the one law of sums the packed layout needs.

  For a batch `x` of 524288 samples of 14 features, a hidden layer `w1, b1` of 14 units with the rectifier, and an
  output layer `w2, b2` of 2 units:
    hidden n g = max (∑ f, x (n, f) · w1 (g, f) + b1 g) 0,
    out (n, o) = ∑ g, hidden n g · w2 (o, g) + b2 o.
  One program packs 16 samples per row and multiplies by block-diagonal weights — sixteen copies of the layer's matrix
  on the diagonal, zeros elsewhere; its sums over the 16·14 packed columns collapse to sums over 14 features because
  a factor that is zero off the diagonal block removes every other term (`sum_blockdiag`): that needs only
  `0 · y = 0` and `1 · y = y`, which hold on all extended reals.
-/
import Idealize.ShloMosaic.PureOps.Ideal.Laws
import Idealize.ShloMosaic.Lib.ValueIdx

noncomputable section

open scoped BigOperators

namespace Cert.Mlp

open Idealize.ShloMosaic Idealize.ShloMosaic.ValueIdx

/-- Unit `g` of the hidden layer on sample `n`. -/
def hidden (x : (⟨2, ![524288, 14]⟩ : Shape).Idx → EReal) (w1 : (⟨2, ![14, 14]⟩ : Shape).Idx → EReal)
    (b1 : (⟨1, ![14]⟩ : Shape).Idx → EReal) (n : Fin 524288) (g : Fin 14) : EReal :=
  max ((∑ f : Fin 14, x (ix2 n f) * w1 (ix2 g f)) + b1 (ix1 g)) 0

/-- Output `o` on sample `n`. -/
def outAt (x : (⟨2, ![524288, 14]⟩ : Shape).Idx → EReal) (w1 : (⟨2, ![14, 14]⟩ : Shape).Idx → EReal)
    (b1 : (⟨1, ![14]⟩ : Shape).Idx → EReal) (w2 : (⟨2, ![2, 14]⟩ : Shape).Idx → EReal)
    (b2 : (⟨1, ![2]⟩ : Shape).Idx → EReal) (n : Fin 524288) (o : Fin 2) : EReal :=
  (∑ g : Fin 14, hidden x w1 b1 n g * w2 (ix2 o g)) + b2 (ix1 o)

/-- The whole result array. -/
def out (x : (⟨2, ![524288, 14]⟩ : Shape).Idx → EReal) (w1 : (⟨2, ![14, 14]⟩ : Shape).Idx → EReal)
    (b1 : (⟨1, ![14]⟩ : Shape).Idx → EReal) (w2 : (⟨2, ![2, 14]⟩ : Shape).Idx → EReal)
    (b2 : (⟨1, ![2]⟩ : Shape).Idx → EReal) : (⟨2, ![524288, 2]⟩ : Shape).Idx → EReal :=
  fun i => outAt x w1 b1 w2 b2 (i 0) (i 1)

/-- A sum over `A` blocks of `B` columns against weights that vanish outside block `b`, and are `W` inside it,
    is the sum over block `b` alone. -/
theorem sum_blockdiag {A B : ℕ} (X Wb : Fin (A * B) → EReal) (b : Fin A) (W : Fin B → EReal)
    (hW : ∀ (a : Fin A) (f : Fin B), Wb (finProdFinEquiv (a, f)) = (if a = b then (1 : EReal) else 0) * W f) :
    ∑ k : Fin (A * B), X k * Wb k = ∑ f : Fin B, X (finProdFinEquiv (b, f)) * W f := by
  rw [← finProdFinEquiv.sum_comp, Fintype.sum_prod_type]
  rw [Finset.sum_eq_single b]
  · refine Finset.sum_congr rfl fun f _ => ?_
    rw [hW b f, if_pos rfl, one_mul]
  · intro a _ hab
    refine Finset.sum_eq_zero fun f _ => ?_
    rw [hW a f, if_neg hab, zero_mul, mul_zero]
  · intro h; exact absurd (Finset.mem_univ b) h

/-- The same over the 224 = 16 · 14 packed columns, the column of block `a` and feature `f` being `a · 14 + f`. -/
theorem sum_packed (X Wb : Fin 224 → EReal) (b : Fin 16) (W : Fin 14 → EReal)
    (hW : ∀ (k : Fin 224) (a : Fin 16) (f : Fin 14), k.val = a.val * 14 + f.val →
      Wb k = (if a = b then (1 : EReal) else 0) * W f) :
    ∑ k : Fin 224, X k * Wb k = ∑ f : Fin 14, X ⟨b.val * 14 + f.val, by have := b.isLt; have := f.isLt; omega⟩ * W f := by
  have h := sum_blockdiag (A := 16) (B := 14) X Wb b W (fun a f => hW _ a f (by
    rw [finProdFinEquiv_apply_val]; ring))
  rw [h]
  refine Finset.sum_congr rfl fun f _ => ?_
  congr 2
  apply Fin.ext
  rw [finProdFinEquiv_apply_val]; ring

/-- The packed program's entry. Row `R` of the packed batch holds samples `16 R … 16 R + 15`, sample `16 R + a` in
    columns `14 a … 14 a + 13`; the first weight matrix carries `w1 (g, f)` at row `14 a + f`, column `14 a + g` and
    zeros off the diagonal blocks, the second `w2 (o, g)` at row `14 a + g`, column `2 a + o`; the biases are tiled.
    Column `j = 2 b + o` of row `R` of the result is then output `o` of sample `16 R + b`. -/
theorem packed_entry (x : (⟨2, ![524288, 14]⟩ : Shape).Idx → EReal) (w1 : (⟨2, ![14, 14]⟩ : Shape).Idx → EReal)
    (b1 : (⟨1, ![14]⟩ : Shape).Idx → EReal) (w2 : (⟨2, ![2, 14]⟩ : Shape).Idx → EReal)
    (b2 : (⟨1, ![2]⟩ : Shape).Idx → EReal)
    (XV : Fin 224 → EReal) (W1b : Fin 224 → Fin 224 → EReal) (B1t : Fin 224 → EReal)
    (W2b : Fin 224 → Fin 32 → EReal) (B2t : Fin 32 → EReal) (R : Fin 32768) (j : Fin 32)
    (hX : ∀ (k : Fin 224) (n : Fin 524288) (f : Fin 14), n.val * 14 + f.val = R.val * 224 + k.val → XV k = x (ix2 n f))
    (hW1 : ∀ (k j' : Fin 224) (a b : Fin 16) (f g : Fin 14), k.val = a.val * 14 + f.val → j'.val = b.val * 14 + g.val →
      W1b k j' = (if a = b then (1 : EReal) else 0) * w1 (ix2 g f))
    (hB1 : ∀ (j' : Fin 224) (b : Fin 16) (g : Fin 14), j'.val = b.val * 14 + g.val → B1t j' = b1 (ix1 g))
    (hW2 : ∀ (k : Fin 224) (j' : Fin 32) (a b : Fin 16) (f : Fin 14) (o : Fin 2), k.val = a.val * 14 + f.val →
      j'.val = b.val * 2 + o.val → W2b k j' = (if a = b then (1 : EReal) else 0) * w2 (ix2 o f))
    (hB2 : ∀ (j' : Fin 32) (b : Fin 16) (o : Fin 2), j'.val = b.val * 2 + o.val → B2t j' = b2 (ix1 o))
    (n : Fin 524288) (o : Fin 2) (hn : n.val = R.val * 16 + j.val / 2) (ho : o.val = j.val % 2) :
    (∑ k : Fin 224, max ((∑ k' : Fin 224, XV k' * W1b k' k) + B1t k) 0 * W2b k j) + B2t j
      = outAt x w1 b1 w2 b2 n o := by
  have hR := R.isLt
  have hj := j.isLt
  -- the hidden unit behind packed column `k = 14 a + g`
  have inner : ∀ (k : Fin 224) (a : Fin 16) (g : Fin 14) (hk : k.val = a.val * 14 + g.val) (n' : Fin 524288)
      (hn' : n'.val = R.val * 16 + a.val),
      max ((∑ k' : Fin 224, XV k' * W1b k' k) + B1t k) 0 = hidden x w1 b1 n' g := by
    intro k a g hk n' hn'
    rw [sum_packed XV (fun k' => W1b k' k) a (fun f => w1 (ix2 g f)) (fun k' a' f h => hW1 k' k a' a f g h hk),
      hB1 k a g hk]
    unfold hidden
    refine congrArg (fun s => max (s + b1 (ix1 g)) 0) (Finset.sum_congr rfl fun f _ => ?_)
    rw [hX _ n' f (by show n'.val * 14 + f.val = R.val * 224 + (a.val * 14 + f.val); rw [hn']; ring)]
  set b : Fin 16 := ⟨j.val / 2, by omega⟩ with hb
  have hjb : j.val = b.val * 2 + o.val := by show j.val = j.val / 2 * 2 + o.val; omega
  rw [sum_packed (fun k => max ((∑ k' : Fin 224, XV k' * W1b k' k) + B1t k) 0) (fun k => W2b k j) b
      (fun g => w2 (ix2 o g)) (fun k a f h => hW2 k j a b f o h hjb), hB2 j b o hjb]
  unfold outAt
  refine congrArg (· + b2 (ix1 o)) (Finset.sum_congr rfl fun g _ => ?_)
  rw [inner _ b g rfl n hn]

/-- The lane-major program's entry: the same two layers with each product's factors in the other order. -/
theorem lane_entry (x : (⟨2, ![524288, 14]⟩ : Shape).Idx → EReal) (w1 : (⟨2, ![14, 14]⟩ : Shape).Idx → EReal)
    (b1 : (⟨1, ![14]⟩ : Shape).Idx → EReal) (w2 : (⟨2, ![2, 14]⟩ : Shape).Idx → EReal)
    (b2 : (⟨1, ![2]⟩ : Shape).Idx → EReal)
    (W1 : Fin 14 → Fin 14 → EReal) (B1 : Fin 14 → EReal) (W2 : Fin 14 → EReal) (B2 : EReal) (XT : Fin 14 → EReal)
    (n : Fin 524288) (o : Fin 2)
    (hW1 : ∀ g f, W1 g f = w1 (ix2 g f)) (hB1 : ∀ g, B1 g = b1 (ix1 g)) (hW2 : ∀ g, W2 g = w2 (ix2 o g))
    (hB2 : B2 = b2 (ix1 o)) (hX : ∀ f, XT f = x (ix2 n f)) :
    (∑ g : Fin 14, W2 g * max ((∑ f : Fin 14, W1 g f * XT f) + B1 g) 0) + B2 = outAt x w1 b1 w2 b2 n o := by
  unfold outAt hidden
  rw [hB2]
  refine congrArg (· + b2 (ix1 o)) (Finset.sum_congr rfl fun g _ => ?_)
  rw [hW2 g, hB1 g, mul_comm]
  refine congrArg (fun s => max (s + b1 (ix1 g)) 0 * w2 (ix2 o g)) (Finset.sum_congr rfl fun f _ => ?_)
  rw [hW1 g f, hX f, mul_comm]

end Cert.Mlp

end
-- ==== Proof.LibPlainProduct.lean ====
/-
  A plain matrix product read at an entry.

  For the dimension numbers of an M×K by K×N product (left operand contracted on its columns, right operand on
  its rows, no batch axis), the vector unit's product into a zero accumulator and the host's general dot
  product, read at the ideal values at row `p` and column `c`, are both the sum over `k : Fin K` of
  `l (p, k) · r (k, c)`: the contraction's one-axis index set is re-indexed by its coordinate, and the two
  operand indices at an output index are computed axis by axis.
-/
import Idealize.ShloMosaic.PureOps.Ideal.Laws
import Idealize.ShloMosaic.Lib.ValueIdx

noncomputable section

open scoped BigOperators

namespace Idealize.ShloMosaic.PlainProduct

open Idealize.ShloMosaic Idealize.ShloMosaic.ValueIdx

variable {M K N : Nat}

/-- The left operand's row at an output index is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction's coordinate. -/
theorem lhs_col (i : (⟨2, ![M, N]⟩ : Shape).Idx) (q : (DotDims.plain M K N).contr.Idx) :
    ((DotDims.plain M K N).lhsIdx i q 1).val = (q ⟨0, (DotDims.plain M K N).rank_contr ▸ Nat.one_pos⟩).val :=
  (DotDims.plain M K N).lhsIdx_val_of_single rfl i q

/-- The right operand's row is the contraction's coordinate. -/
theorem rhs_row (i : (⟨2, ![M, N]⟩ : Shape).Idx) (q : (DotDims.plain M K N).contr.Idx) :
    ((DotDims.plain M K N).rhsIdx i q 0).val = (q ⟨0, (DotDims.plain M K N).rank_contr ▸ Nat.one_pos⟩).val :=
  (DotDims.plain M K N).rhsIdx_val_of_single rfl i q

/-- The right operand's column at an output index is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum at entry `(p, c)` is the sum over `k` of `l (p, k) · r (k, c)`. -/
theorem sum_contr (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

/-- The vector unit's product into a zero accumulator at entry `(p, c)`. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ k : Fin K, l (ix2 p k) * r (ix2 k c) := by
  subst hd
  simp only [matmul]
  rw [Ideal.matmul_constant_zero_apply]
  exact sum_contr l r p c

/-- The host's general dot product at entry `(p, c)`. -/
theorem dotGeneral_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    (Host.dotGeneral d prec l r : FVec Ideal ⟨2, ![M, N]⟩ .f32) (ix2 p c) = ∑ k : Fin K, l (ix2 p k) * r (ix2 k c) := by
  subst hd
  simp only [Host.dotGeneral]
  rw [Ideal.dotGeneral_apply]
  exact sum_contr l r p c

end Idealize.ShloMosaic.PlainProduct

end
-- ==== Proof.KerBody.lean ====
/-
  The packed program's body at an entry.

  On a block of 2048 packed rows the body forms  relu (X · W1 + B1) · W2 + B2  with X of 224 columns, W1 224 × 224,
  B1 one row of 224 laid down the rows, W2 224 × 32 and B2 one row of 32: at row `p` and column `j`
    ∑ k, max (∑ k', X (p, k') · W1 (k', k) + B1 (0, k)) 0 · W2 (k, j) + B2 (0, j),
  both products plain matrix products into a zero accumulator.
-/
import proofs.«138307_g2000009308301071_pallasbulk_1338_2_alg».proof.Proof.Gen.KernelIdeal.Skeleton
import proofs.«138307_g2000009308301071_pallasbulk_1338_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.TcCoe Idealize.ShloMosaic.ValueIdx
open Cert.KernelIdeal Cert.KernelIdeal.Gen

/-- The first product's dimension numbers are a plain 2048 × 224 by 224 × 224 product's. -/
theorem dot1_plain : dot_S2048x224_S224x224_S2048x224_1_0_0_1_n_n = DotDims.plain 2048 224 224 := rfl
/-- The second's a plain 2048 × 224 by 224 × 32 product's. -/
theorem dot2_plain : dot_S2048x224_S224x32_S2048x32_1_0_0_1_n_n = DotDims.plain 2048 224 32 := rfl

/-- The body's stored value at row `p`, column `j` of the block. -/
theorem pay_apply (X : Vec Ideal S2048x224 .f32) (W1 : Vec Ideal S224x224 .f32) (B1 : Vec Ideal S1x224 .f32)
    (W2 : Vec Ideal S224x32 .f32) (B2 : Vec Ideal S1x32 .f32) (p : Fin 2048) (j : Fin 32) :
    k0_pay1 (F := Ideal) X W1 B1 W2 B2 (ix2 p j)
      = (∑ k : Fin 224, max ((∑ k' : Fin 224, X (ix2 p k') * W1 (ix2 k' k)) + B1 (ix2 (0 : Fin 1) k)) 0 * W2 (ix2 k j))
        + B2 (ix2 (0 : Fin 1) j) := by
  unfold k0_pay1
  simp only [shapeCast_self]
  rw [addf_apply, PlainProduct.matmul_zero_apply _ dot2_plain, broadcastTo_1b_ab_apply]
  refine congrArg (· + B2 (ix2 (0 : Fin 1) j)) (Finset.sum_congr rfl fun k _ => ?_)
  rw [maximumf_apply, addf_apply, PlainProduct.matmul_zero_apply _ dot1_plain, broadcastTo_1b_ab_apply, broadcast_apply]
  show max _ (Ideal.ofBits .f32 0x00000000#32) * _ = _
  rw [Ideal.ofBits_zero_f32]

end Cert.KernelIdeal.Body

end
-- ==== Proof.KerBlocks.lean ====
/-
  The packed program's grid: what each point's blocks are, and what a point writes back, entry by entry.

  Sixteen points; point `t` stages rows `2048 t … 2048 t + 2047` of the packed batch (all 224 columns), the two weight
  matrices and the two bias rows whole, and writes back rows `2048 t … 2048 t + 2047` of the packed result (all 32
  columns). Entry `(p, j)` of what point `t` writes back is the body's value on those blocks, so with `R = 2048 t + p`
    ∑ k, max (∑ k', XV (R, k') · W1b (k', k) + B1t (0, k)) 0 · W2b (k, j) + B2t (0, j)
  of the arrays as the region finds them. The sixteen row blocks cover the packed result.
-/
import proofs.«138307_g2000009308301071_pallasbulk_1338_2_alg».proof.Proof.Gen.KernelIdeal.Frame
import proofs.«138307_g2000009308301071_pallasbulk_1338_2_alg».proof.Proof.KerBody
import Idealize.ShloMosaic.Lib.ValueIdx
import Idealize.ShloMosaic.Lib.Pipeline.Value

set_option maxRecDepth 16384

noncomputable section

open scoped BigOperators

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The arrays as the region finds them, as functions of an index into extended reals: the packed batch, the two
    block-diagonal weight matrices and the two tiled bias rows. -/
abbrev aXV (c : Dev nD) : S32768x224.Idx → EReal := V m c main_v0
abbrev aW1 (c : Dev nD) : S224x224.Idx → EReal := V m c main_v13
abbrev aB1 (c : Dev nD) : S1x224.Idx → EReal := V m c main_v24
abbrev aW2 (c : Dev nD) : S224x32.Idx → EReal := V m c main_v20
abbrev aB2 (c : Dev nD) : S1x32.Idx → EReal := V m c main_v28

theorem hz : (![0, 0] : Fin 2 → Nat) = fun _ => 0 := funext fun a => by fin_cases a <;> rfl

/-- The printed index maps over the grid: the weights and biases sit at block (0, 0) at every point, the packed batch
    and the packed result at block (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The first weight matrix's block is the matrix. -/
theorem iblk0_apply (c : Dev nD) (t : Fin cfg0.N) (y : S224x224.Idx) :
    (iblk m c 0 t : Vec Ideal S224x224 .f32) y = aW1 m c y := by
  obtain ⟨e0, e1, -⟩ := idx_facts t
  unfold iblk
  rw [View.read_apply]
  show V m c main_v13 _ = V m c main_v13 _
  congr 1
  funext a
  apply Fin.ext
  match a with
  | ⟨0, _⟩ => show win0_0.index t (0 : Fin 2) * 224 + 1 * (y 0).val = (y 0).val; rw [e0]; omega
  | ⟨1, _⟩ => show win0_0.index t (1 : Fin 2) * 224 + 1 * (y 1).val = (y 1).val; rw [e1]; omega

/-- The first bias row's block is the row. -/
theorem iblk1_apply (c : Dev nD) (t : Fin cfg0.N) (y : S1x224.Idx) :
    (iblk m c 1 t : Vec Ideal S1x224 .f32) y = aB1 m c y := by
  obtain ⟨-, -, e0, e1, -⟩ := idx_facts t
  unfold iblk
  rw [View.read_apply]
  show V m c main_v24 _ = V m c main_v24 _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 224 + 1 * (y 1).val = (y 1).val; rw [e1]; omega

/-- The second weight matrix's block is the matrix. -/
theorem iblk2_apply (c : Dev nD) (t : Fin cfg0.N) (y : S224x32.Idx) :
    (iblk m c 2 t : Vec Ideal S224x32 .f32) y = aW2 m c y := by
  obtain ⟨-, -, -, -, e0, e1, -⟩ := idx_facts t
  unfold iblk
  rw [View.read_apply]
  show V m c main_v20 _ = V m c main_v20 _
  congr 1
  funext a
  apply Fin.ext
  match a with
  | ⟨0, _⟩ => show win0_2.index t (0 : Fin 2) * 224 + 1 * (y 0).val = (y 0).val; rw [e0]; omega
  | ⟨1, _⟩ => show win0_2.index t (1 : Fin 2) * 32 + 1 * (y 1).val = (y 1).val; rw [e1]; omega

/-- The second bias row's block is the row. -/
theorem iblk3_apply (c : Dev nD) (t : Fin cfg0.N) (y : S1x32.Idx) :
    (iblk m c 3 t : Vec Ideal S1x32 .f32) y = aB2 m c y := by
  obtain ⟨-, -, -, -, -, -, e0, e1, -⟩ := idx_facts t
  unfold iblk
  rw [View.read_apply]
  show V m c main_v28 _ = V m c main_v28 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 32 + 1 * (y 1).val = (y 1).val; rw [e1]; omega

/-- The packed batch's block at point `t` is its rows `2048 t … 2048 t + 2047`. -/
theorem iblk4_apply (c : Dev nD) (t : Fin cfg0.N) (p : Fin 2048) (k : Fin 224) (R : Fin 32768)
    (hR : R.val = t.val * 2048 + p.val) :
    (iblk m c 4 t : Vec Ideal S2048x224 .f32) (ix2 p k) = aXV m c (ix2 R k) := by
  obtain ⟨-, -, -, -, -, -, -, -, e0, e1, -⟩ := idx_facts t
  unfold iblk
  rw [View.read_apply]
  show V m c main_v0 _ = V m c main_v0 _
  congr 1
  funext a
  apply Fin.ext
  match a with
  | ⟨0, _⟩ => show win0_4.index t (0 : Fin 2) * 2048 + 1 * p.val = R.val; rw [e0, hR]; omega
  | ⟨1, _⟩ => show win0_4.index t (1 : Fin 2) * 224 + 1 * k.val = k.val; rw [e1]; omega

/-- Entry `(p, j)` of what point `t` leaves in the result's staging buffer, over the arrays as the region finds them. -/
theorem after_apply (c : Dev nD) (t : Fin cfg0.N) (p : Fin 2048) (j : Fin 32) (R : Fin 32768)
    (hR : R.val = t.val * 2048 + p.val) :
    ((dats m 0 c).after 5 t : Vec Ideal S2048x32 .f32) (ix2 p j)
      = (∑ k : Fin 224, max ((∑ k' : Fin 224, aXV m c (ix2 R k')
            * aW1 m c (ix2 k' k)) + aB1 m c (ix2 (0 : Fin 1) k)) 0
          * aW2 m c (ix2 k j))
        + aB2 m c (ix2 (0 : Fin 1) j) := by
  rw [after0_5]
  unfold out0_5
  rw [View.canon_unit_zero hz]
  simp only [View.ld_unit_zero (S := S2048x224) hz, View.ld_unit_zero (S := S224x224) hz, View.ld_unit_zero (S := S1x224) hz,
    View.ld_unit_zero (S := S224x32) hz, View.ld_unit_zero (S := S1x32) hz]
  refine (Body.pay_apply (iblk m c 4 t) (iblk m c 0 t) (iblk m c 1 t) (iblk m c 2 t) (iblk m c 3 t) p j).trans ?_
  rw [iblk3_apply m c t]
  refine congrArg (· + aB2 m c (ix2 (0 : Fin 1) j)) (Finset.sum_congr rfl fun k _ => ?_)
  rw [iblk2_apply m c t, iblk1_apply m c t]
  refine congrArg (fun s => max (s + aB1 m c (ix2 (0 : Fin 1) k)) 0
    * aW2 m c (ix2 k j)) (Finset.sum_congr rfl fun k' _ => ?_)
  rw [iblk0_apply m c t, iblk4_apply m c t p k' R hR]

/-- An index of the packed result is in point `t`'s block iff its row is in `2048 t … 2048 t + 2047`. -/
theorem mem_blk (t : Fin cfg0.N) (i : S32768x32.Idx) :
    i ∈ ((cfg0.win 5).blk t).view.set ↔ ∀ a : Fin 2, win0_5.index t a * S2048x32.size a ≤ (i a).val ∧ (i a).val < win0_5.index t a * S2048x32.size a + S2048x32.size a := by
  show i ∈ ((View.whole main_v29).slice (win0_5.rect t)).set ↔ _
  rw [View.set_slice_whole, Rect.mem_set_unit]
  exact Iff.rfl

/-- Every index of the packed result is in the block of the point its row falls in. -/
theorem cover (i : S32768x32.Idx) :
    ∃ t : Fin cfg0.N, (cfg0.win 5).flush t = true ∧ i ∈ ((cfg0.win 5).blk t).view.set := by
  have hi0 : (i 0).val < 32768 := (i 0).isLt
  have hi1 : (i 1).val < 32 := (i 1).isLt
  have hN : cfg0.N = 16 := N_0
  let t : Fin cfg0.N := ⟨(i 0).val / 2048, by rw [hN]; omega⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    rw [e0]; show (i 0).val / 2048 * 2048 ≤ (i 0).val ∧ (i 0).val < (i 0).val / 2048 * 2048 + 2048; omega
  | ⟨1, _⟩ =>
    show win0_5.index t (1 : Fin 2) * 32 ≤ (i 1).val ∧ (i 1).val < win0_5.index t (1 : Fin 2) * 32 + 32
    rw [e1]; omega

end Cert.KernelIdeal.Blocks

end
-- ==== Proof.KerOperands.lean ====
import proofs.«138307_g2000009308301071_pallasbulk_1338_2_alg».proof.Proof.Gen.KernelIdeal.Frame
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

/-!
# The operands of the kernel as its region finds them

Before its one pipelined region the program computes, on the host, the five arrays the region reads: the
activations viewed sixteen samples to a row, the two block-diagonal weight matrices (the Kronecker product of the
16 × 16 identity with the transposed weights), and the two biases tiled sixteen times. Each is read here at an
index, as a function of the program's arguments.
-/

noncomputable section
open Idealize.ShloMosaic Idealize.ShloMosaic.TcCoe Idealize.SL.Sem
open Idealize.ShloMosaic.ValueIdx

namespace Cert.KernelIdeal.Operands
open Cert.KernelIdeal Cert.KernelIdeal.Gen
variable (m : (ℓ : Loc nD τ sig) → Buf (Elt Ideal) ℓ) (c : Dev nD)

/-! ## The activations: a row-major regrouping -/

/-- The activations as the region finds them: the argument, reshaped. -/
theorem xv_eq : (V m c main_v0 : S32768x224.Idx → EReal)
    = shapeCast S32768x224 (m ((c : Thread nD τ).loc main_arg0) : S524288x14.Idx → EReal) shapeCasts_S524288x14_S32768x224 := by
  show StableHlo.after hostOps0 (fun b => m (c, b)) (Proc.devRef .tc main_v0) = _
  after_results
  rfl

/-- Row `r`, column `k` of the regrouped activations is the argument's entry at the same row-major position. -/
theorem xv_apply (r : Fin 32768) (k : Fin 224) (n : Fin 524288) (f : Fin 14) (h : n.val * 14 + f.val = r.val * 224 + k.val) :
    (V m c main_v0 : S32768x224.Idx → EReal) (ix2 r k) = (m ((c : Thread nD τ).loc main_arg0) : S524288x14.Idx → EReal) (ix2 n f) := by
  rw [xv_eq]
  refine shapeCast_apply _ _ (ix2 r k) (ix2 n f) ?_
  rw [Shape.rowMajor_val_two, Shape.rowMajor_val_two]
  exact h

/-! ## The biases: sixteen copies, one after the other -/

/-- The first bias as the region finds it: the argument as one row, repeated sixteen times, flattened. -/
theorem b1t_eq : (V m c main_v24 : S1x224.Idx → EReal)
    = shapeCast S1x224 (shapeCast S224 (broadcastInDim S16x14 ![0, 1] bcast_S1x14_S16x14_0_1
        (shapeCast S1x14 (m ((c : Thread nD τ).loc main_arg2) : S14.Idx → EReal) shapeCasts_S14_S1x14))
        shapeCasts_S16x14_S224) shapeCasts_S224_S1x224 := by
  show StableHlo.after hostOps0 (fun b => m (c, b)) (Proc.devRef .tc main_v24) = _
  after_results
  rfl

/-- Entry `b * 14 + g` of the tiled first bias is entry `g` of the bias. -/
theorem b1t_apply (u : Fin 1) (j : Fin 224) (b : Fin 16) (g : Fin 14) (hj : j.val = b.val * 14 + g.val) :
    (V m c main_v24 : S1x224.Idx → EReal) (ix2 u j) = (m ((c : Thread nD τ).loc main_arg2) : S14.Idx → EReal) (ix1 g) := by
  rw [b1t_eq, shapeCast_a_1a_apply]
  refine (shapeCast_apply _ _ (ix1 j) (ix2 b g) ?_).trans ?_
  · rw [Shape.rowMajor_val_two, Shape.rowMajor_val_one]
    exact hj.symm
  refine (broadcastInDim_apply _ _ _ (ix2 b g) (ix2 (0 : Fin 1) g) fun a => ?_).trans ?_
  · match a with
    | ⟨0, _⟩ => rfl
    | ⟨1, _⟩ => rfl
  exact shapeCast_a_1a_apply _ _ 0 g

/-- The second bias as the region finds it: the argument as one row, repeated sixteen times, flattened. -/
theorem b2t_eq : (V m c main_v28 : S1x32.Idx → EReal)
    = shapeCast S1x32 (shapeCast S32 (broadcastInDim S16x2 ![0, 1] bcast_S1x2_S16x2_0_1
        (shapeCast S1x2 (m ((c : Thread nD τ).loc main_arg4) : S2.Idx → EReal) shapeCasts_S2_S1x2))
        shapeCasts_S16x2_S32) shapeCasts_S32_S1x32 := by
  show StableHlo.after hostOps0 (fun b => m (c, b)) (Proc.devRef .tc main_v28) = _
  after_results
  rfl

/-- Entry `b * 2 + o` of the tiled second bias is entry `o` of the bias. -/
theorem b2t_apply (u : Fin 1) (j : Fin 32) (b : Fin 16) (o : Fin 2) (hj : j.val = b.val * 2 + o.val) :
    (V m c main_v28 : S1x32.Idx → EReal) (ix2 u j) = (m ((c : Thread nD τ).loc main_arg4) : S2.Idx → EReal) (ix1 o) := by
  rw [b2t_eq, shapeCast_a_1a_apply]
  refine (shapeCast_apply _ _ (ix1 j) (ix2 b o) ?_).trans ?_
  · rw [Shape.rowMajor_val_two, Shape.rowMajor_val_one]
    exact hj.symm
  refine (broadcastInDim_apply _ _ _ (ix2 b o) (ix2 (0 : Fin 1) o) fun a => ?_).trans ?_
  · match a with
    | ⟨0, _⟩ => rfl
    | ⟨1, _⟩ => rfl
  exact shapeCast_a_1a_apply _ _ 0 o

/-! ## The identity pattern -/

/-- The 16 × 16 pattern the host computes from two index grids: row index equals column index, converted to a float. -/
def eye : S16x16.Idx → EReal :=
  uitofp (F := Ideal) .f32
    (cmpi .eq (addi (iotaInDim S16x16 32 0) (broadcastInDim S16x16 ![] bcast_S_S16x16 (constantI S_ 32 0#32)))
      (iotaInDim S16x16 32 1))

/-- The pattern is the identity matrix: one on the diagonal, zero off it. -/
theorem eye_apply (a b : Fin 16) : eye (ix2 a b) = if a = b then (1 : EReal) else 0 := by
  have e : eye (ix2 a b)
      = (((BitVec.ofBool (BitVec.ofNat 32 a.val + 0#32 == BitVec.ofNat 32 b.val)).toNat : ℝ) : EReal) := rfl
  rw [e]
  by_cases h : a = b
  · subst h
    simp
  · rw [if_neg h]
    have hne : (BitVec.ofNat 32 a.val + 0#32 == BitVec.ofNat 32 b.val) = false := by
      rw [beq_eq_false_iff_ne]
      intro hh
      have h2 := congrArg BitVec.toNat hh
      simp at h2
      omega
    rw [hne]
    simp

/-! ## The block-diagonal weights: the identity pattern times the transposed weights -/

/-- A 16 × 16 array spread over axes 0 and 2 of a rank-4 array reads, at `(a, f, b, g)`, its entry `(a, b)`. -/
theorem spread02_apply {p : ℕ} (E : S16x16.Idx → EReal)
    (h1 : S16x16.BroadcastsInDim S16x1x16x1 (![0, 2] : Fin 2 → Fin 4))
    (h2 : S16x1x16x1.BroadcastsInDim ⟨4, ![16, 14, 16, p]⟩ (![0, 1, 2, 3] : Fin 4 → Fin 4))
    (a : Fin 16) (f : Fin 14) (b : Fin 16) (g : Fin p) :
    broadcastInDim ⟨4, ![16, 14, 16, p]⟩ ![0, 1, 2, 3] h2 (broadcastInDim S16x1x16x1 ![0, 2] h1 E) (ix4 a f b g)
      = E (ix2 a b) := by
  refine (broadcastInDim_apply _ _ _ (ix4 a f b g) (ix4 a (0 : Fin 1) b (0 : Fin 1)) fun x => ?_).trans ?_
  · match x with
    | ⟨0, _⟩ => rfl
    | ⟨1, _⟩ => rfl
    | ⟨2, _⟩ => rfl
    | ⟨3, _⟩ => rfl
  refine broadcastInDim_apply _ _ _ (ix4 a (0 : Fin 1) b (0 : Fin 1)) (ix2 a b) fun x => ?_
  match x with
  | ⟨0, _⟩ => rfl
  | ⟨1, _⟩ => rfl

/-- A 14 × p array spread over axes 1 and 3 of a rank-4 array reads, at `(a, f, b, g)`, its entry `(f, g)`. -/
theorem spread13_apply {p : ℕ} (hp : p ≠ 1) (W : (⟨2, ![14, p]⟩ : Shape).Idx → EReal)
    (h1 : (⟨2, ![14, p]⟩ : Shape).BroadcastsInDim ⟨4, ![1, 14, 1, p]⟩ (![1, 3] : Fin 2 → Fin 4))
    (h2 : (⟨4, ![1, 14, 1, p]⟩ : Shape).BroadcastsInDim ⟨4, ![16, 14, 16, p]⟩ (![0, 1, 2, 3] : Fin 4 → Fin 4))
    (a : Fin 16) (f : Fin 14) (b : Fin 16) (g : Fin p) :
    broadcastInDim ⟨4, ![16, 14, 16, p]⟩ ![0, 1, 2, 3] h2 (broadcastInDim ⟨4, ![1, 14, 1, p]⟩ ![1, 3] h1 W) (ix4 a f b g)
      = W (ix2 f g) := by
  refine (broadcastInDim_apply _ _ _ (ix4 a f b g) (ix4 (0 : Fin 1) f (0 : Fin 1) g) fun x => ?_).trans ?_
  · match x with
    | ⟨0, _⟩ => rfl
    | ⟨1, _⟩ => rfl
    | ⟨2, _⟩ => rfl
    | ⟨3, _⟩ =>
      show g.val = if p = 1 then 0 else g.val
      rw [if_neg hp]
  refine broadcastInDim_apply _ _ _ (ix4 (0 : Fin 1) f (0 : Fin 1) g) (ix2 f g) fun x => ?_
  match x with
  | ⟨0, _⟩ => rfl
  | ⟨1, _⟩ =>
    show g.val = if p = 1 then 0 else g.val
    rw [if_neg hp]

/-- The first weight matrix as the region finds it. -/
theorem w1b_eq : (V m c main_v13 : S224x224.Idx → EReal)
    = shapeCast S224x224
        (mulf (F := Ideal) (φ := .f32)
          (broadcastInDim S16x14x16x14 ![0, 1, 2, 3] bcast_S16x1x16x1_S16x14x16x14_0_1_2_3
            (broadcastInDim S16x1x16x1 ![0, 2] bcast_S16x16_S16x1x16x1_0_2 eye))
          (broadcastInDim S16x14x16x14 ![0, 1, 2, 3] bcast_S1x14x1x14_S16x14x16x14_0_1_2_3
            (broadcastInDim S1x14x1x14 ![1, 3] bcast_S14x14_S1x14x1x14_1_3
              (transpose S14x14 [1, 0] (m ((c : Thread nD τ).loc main_arg1) : S14x14.Idx → EReal)
                transposes_S14x14_S14x14_1_0))))
        shapeCasts_S16x14x16x14_S224x224 := by
  show StableHlo.after hostOps0 (fun b => m (c, b)) (Proc.devRef .tc main_v13) = _
  after_results
  rfl

/-- Entry `(a * 14 + f, b * 14 + g)` of the first block-diagonal matrix: on the diagonal blocks the transposed
    weights, zero elsewhere. -/
theorem w1b_apply (k j : Fin 224) (a b : Fin 16) (f g : Fin 14) (hk : k.val = a.val * 14 + f.val) (hj : j.val = b.val * 14 + g.val) :
    (V m c main_v13 : S224x224.Idx → EReal) (ix2 k j) = (if a = b then (1 : EReal) else 0) * (m ((c : Thread nD τ).loc main_arg1) : S14x14.Idx → EReal) (ix2 g f) := by
  rw [w1b_eq]
  refine (shapeCast_apply _ _ (ix2 k j) (ix4 a f b g) ?_).trans ?_
  · rw [Shape.rowMajor_val_four, Shape.rowMajor_val_two]
    show ((a.val * 14 + f.val) * 16 + b.val) * 14 + g.val = k.val * 224 + j.val
    omega
  rw [mulf_apply, spread02_apply, spread13_apply (by decide), eye_apply, transpose_ix2_apply]

/-- The second weight matrix as the region finds it. -/
theorem w2b_eq : (V m c main_v20 : S224x32.Idx → EReal)
    = shapeCast S224x32
        (mulf (F := Ideal) (φ := .f32)
          (broadcastInDim S16x14x16x2 ![0, 1, 2, 3] bcast_S16x1x16x1_S16x14x16x2_0_1_2_3
            (broadcastInDim S16x1x16x1 ![0, 2] bcast_S16x16_S16x1x16x1_0_2 eye))
          (broadcastInDim S16x14x16x2 ![0, 1, 2, 3] bcast_S1x14x1x2_S16x14x16x2_0_1_2_3
            (broadcastInDim S1x14x1x2 ![1, 3] bcast_S14x2_S1x14x1x2_1_3
              (transpose S14x2 [1, 0] (m ((c : Thread nD τ).loc main_arg3) : S2x14.Idx → EReal)
                transposes_S2x14_S14x2_1_0))))
        shapeCasts_S16x14x16x2_S224x32 := by
  show StableHlo.after hostOps0 (fun b => m (c, b)) (Proc.devRef .tc main_v20) = _
  after_results
  rfl

/-- Entry `(a * 14 + f, b * 2 + o)` of the second block-diagonal matrix: on the diagonal blocks the transposed
    weights, zero elsewhere. -/
theorem w2b_apply (k : Fin 224) (j : Fin 32) (a b : Fin 16) (f : Fin 14) (o : Fin 2) (hk : k.val = a.val * 14 + f.val) (hj : j.val = b.val * 2 + o.val) :
    (V m c main_v20 : S224x32.Idx → EReal) (ix2 k j) = (if a = b then (1 : EReal) else 0) * (m ((c : Thread nD τ).loc main_arg3) : S2x14.Idx → EReal) (ix2 o f) := by
  rw [w2b_eq]
  refine (shapeCast_apply _ _ (ix2 k j) (ix4 a f b o) ?_).trans ?_
  · rw [Shape.rowMajor_val_four, Shape.rowMajor_val_two]
    show ((a.val * 14 + f.val) * 16 + b.val) * 2 + o.val = k.val * 32 + j.val
    omega
  rw [mulf_apply, spread02_apply, spread13_apply (by decide), eye_apply, transpose_ix2_apply]

end Cert.KernelIdeal.Operands
end
-- ==== Proof.KerValue.lean ====
/-
  The packed program's result.

  The packed result array ends holding, at row `R` and column `j`, output `j mod 2` of sample `16 R + j / 2`: each
  point writes back its rows of that array (the body's entry, the block-diagonal sums collapsed), and the points' row
  blocks cover it. The program's last line lays the packed [32768, 32] array out as [524288, 2] in the same row-major
  order, so entry `(n, o)` of the result is output `o` of sample `n`.
-/
import proofs.«138307_g2000009308301071_pallasbulk_1338_2_alg».proof.Proof.Gen.KernelIdeal.Frame
import proofs.«138307_g2000009308301071_pallasbulk_1338_2_alg».proof.Proof.KerBlocks
import proofs.«138307_g2000009308301071_pallasbulk_1338_2_alg».proof.Proof.KerOperands
import proofs.«138307_g2000009308301071_pallasbulk_1338_2_alg».proof.Proof.Spec
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The argument arrays as launched, as functions of an index into extended reals. -/
abbrev ax (c : Dev nD) : S524288x14.Idx → EReal := m ((c : Thread nD τ).loc main_arg0)
abbrev aw1 (c : Dev nD) : S14x14.Idx → EReal := m ((c : Thread nD τ).loc main_arg1)
abbrev ab1 (c : Dev nD) : S14.Idx → EReal := m ((c : Thread nD τ).loc main_arg2)
abbrev aw2 (c : Dev nD) : S2x14.Idx → EReal := m ((c : Thread nD τ).loc main_arg3)
abbrev ab2 (c : Dev nD) : S2.Idx → EReal := m ((c : Thread nD τ).loc main_arg4)

/-- The packed result: row `R`, column `j` holds output `j mod 2` of sample `16 R + j / 2`. -/
def packed (c : Dev nD) : S32768x32.Idx → EReal := fun i =>
  Mlp.outAt (ax m c) (aw1 m c) (ab1 m c) (aw2 m c) (ab2 m c)
    ⟨(i 0).val * 16 + (i 1).val / 2, by have h0 : (i 0).val < 32768 := (i 0).isLt; have h1 : (i 1).val < 32 := (i 1).isLt; omega⟩
    ⟨(i 1).val % 2, Nat.mod_lt _ (by decide)⟩

/-- What point `t` writes back is its row block of the packed result. -/
theorem flushed_eq (c : Dev nD) (t : Fin cfg0.N) :
    (dats m 0 c).flushed 5 t = ((cfg0.win 5).blk t).view.read (Elt Ideal) (packed m c) := by
  show (cfg0.win 5).cut (grid0.coords t) ((dats m 0 c).after 5 t) = _
  funext y
  obtain ⟨p, j, rfl⟩ : ∃ (p : Fin 2048) (j : Fin 32), y = ix2 p j := ⟨y 0, y 1, eq_ix2 y⟩
  have hN : cfg0.N = 16 := N_0
  have ht : t.val < 16 := hN ▸ t.isLt
  have hp := p.isLt
  let R : Fin 32768 := ⟨t.val * 2048 + p.val, by omega⟩
  have hemb : ((cfg0.win 5).blk t).view.emb (ix2 p j) = ix2 R j := by
    obtain ⟨-, -, -, -, -, -, -, -, -, -, e0, e1⟩ := Blocks.idx_facts t
    funext a
    apply Fin.ext
    match a with
    | ⟨0, _⟩ => show win0_5.index t (0 : Fin 2) * 2048 + 1 * p.val = t.val * 2048 + p.val; rw [e0]; omega
    | ⟨1, _⟩ => show win0_5.index t (1 : Fin 2) * 32 + 1 * j.val = j.val; rw [e1]; omega
  show ((dats m 0 c).after 5 t : Vec Ideal S2048x32 .f32) (ix2 p j) = packed m c (((cfg0.win 5).blk t).view.emb (ix2 p j))
  rw [hemb, Blocks.after_apply m c t p j R rfl]
  exact Mlp.packed_entry (ax m c) (aw1 m c) (ab1 m c) (aw2 m c) (ab2 m c)
    (fun k => Blocks.aXV m c (ix2 R k)) (fun k j' => Blocks.aW1 m c (ix2 k j')) (fun j' => Blocks.aB1 m c (ix2 (0 : Fin 1) j'))
    (fun k j' => Blocks.aW2 m c (ix2 k j')) (fun j' => Blocks.aB2 m c (ix2 (0 : Fin 1) j')) R j
    (fun k n f h => Operands.xv_apply m c R k n f h)
    (fun k j' a b f g hk hj => Operands.w1b_apply m c k j' a b f g hk hj)
    (fun j' b g hj => Operands.b1t_apply m c 0 j' b g hj)
    (fun k j' a b f o hk hj => Operands.w2b_apply m c k j' a b f o hk hj)
    (fun j' b o hj => Operands.b2t_apply m c 0 j' b o hj)
    _ _ rfl rfl

/-- The packed result array after the run. -/
theorem final (c : Dev nD) : (dats m 0 c).arrAt 5 cfg0.N = packed m c :=
  (dats m 0 c).arrAt_eq_of_cover 5 (packed m c) (fun t _ => flushed_eq m c t) Blocks.cover

/-- The last line's array: the packed result laid out as [524288, 2], which is the perceptron's result array. -/
theorem tail_eq (c : Dev nD) :
    Pipeline.afterTail₀ cfgs (dats m) 0 (V0 m) [hostOps1] c main_v30
      = Mlp.out (ax m c) (aw1 m c) (ab1 m c) (aw2 m c) (ab2 m c) := by
  unfold Pipeline.afterTail₀
  show StableHlo.after hostOps1 _ (Proc.devRef .tc main_v30) = _
  after_results
  have e : Pipeline.withArrays (cfgs 0).spec c (V0 m c) (fun w => (dats m 0 c).arrAt w (cfgs 0).N) (Proc.tc.devRef main_v29)
      = packed m c :=
    (Pipeline.withArrays_arr spec0 launch0.win.arr_inj c _ _ 5).trans (final m c)
  funext i
  show shapeCast S524288x2 (Pipeline.withArrays (cfgs 0).spec c (V0 m c) (fun w => (dats m 0 c).arrAt w (cfgs 0).N)
    (Proc.tc.devRef main_v29)) shapeCasts_S32768x32_S524288x2 i = _
  rw [e]
  have h0 : (i 0).val < 524288 := (i 0).isLt
  have h1 : (i 1).val < 2 := (i 1).isLt
  let R : Fin 32768 := ⟨(i 0).val / 16, by omega⟩
  let j : Fin 32 := ⟨(i 0).val % 16 * 2 + (i 1).val, by omega⟩
  rw [shapeCast_apply (packed m c) shapeCasts_S32768x32_S524288x2 i (ix2 R j) (by
    rw [Shape.rowMajor_val_two, Shape.rowMajor_val_two]
    show (i 0).val / 16 * 32 + ((i 0).val % 16 * 2 + (i 1).val) = (i 0).val * 2 + (i 1).val
    omega)]
  unfold packed Mlp.out
  congr 1
  · apply Fin.ext
    show (i 0).val / 16 * 16 + ((i 0).val % 16 * 2 + (i 1).val) / 2 = (i 0).val
    omega
  · apply Fin.ext
    show ((i 0).val % 16 * 2 + (i 1).val) % 2 = (i 1).val
    omega

/-- The run, read: the result array at the perceptron's result of the arguments, the arguments unchanged. -/
theorem run : θ_run defs (onTc (τ := τ) (main (F := Ideal))) ⟨m, fun _ => 0, ρ⟩ fun r => ∀ c : Dev nD,
      r.2.mem ((c.tc : Thread nD τ).loc main_v30) = Mlp.out (ax m c) (aw1 m c) (ab1 m c) (aw2 m c) (ab2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v30 (Pipeline.mem_restRefs_of main_v30 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefBody.lean ====
/-
  The lane-major program's body at an entry.

  On a block of 2048 samples held as columns the body forms  W2 · relu (W1 · X + B1) + B2  with W1 14 × 14, X 14 × 2048,
  B1 a column of 14 laid across the columns, W2 2 × 14 and B2 a column of 2: at row `o` and column `q`
    ∑ g, W2 (o, g) · max (∑ f, W1 (g, f) · X (f, q) + B1 (g, 0)) 0 + B2 (o, 0),
  both products plain matrix products into a zero accumulator.
-/
import proofs.«138307_g2000009308301071_pallasbulk_1338_2_alg».proof.Proof.Gen.ReferenceIdeal.Skeleton
import proofs.«138307_g2000009308301071_pallasbulk_1338_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Body

open Idealize.ShloMosaic Idealize.ShloMosaic.TcCoe Idealize.ShloMosaic.ValueIdx
open Cert.ReferenceIdeal Cert.ReferenceIdeal.Gen

/-- An `[a, 1]` column broadcast across the columns of `[a, b]` reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first product's dimension numbers are a plain 14 × 14 by 14 × 2048 product's. -/
theorem dot1_plain : dot_S14x14_S14x2048_S14x2048_1_0_0_1_n_n = DotDims.plain 14 14 2048 := rfl
/-- The second's a plain 2 × 14 by 14 × 2048 product's. -/
theorem dot2_plain : dot_S2x14_S14x2048_S2x2048_1_0_0_1_n_n = DotDims.plain 2 14 2048 := rfl

/-- The body's stored value at row `o`, column `q` of the block. -/
theorem pay_apply (W1 : Vec Ideal S14x14 .f32) (B1 : Vec Ideal S14x1 .f32) (W2 : Vec Ideal S2x14 .f32)
    (B2 : Vec Ideal S2x1 .f32) (X : Vec Ideal S14x2048 .f32) (o : Fin 2) (q : Fin 2048) :
    k0_pay1 (F := Ideal) W1 B1 W2 B2 X (ix2 o q)
      = (∑ g : Fin 14, W2 (ix2 o g) * max ((∑ f : Fin 14, W1 (ix2 g f) * X (ix2 f q)) + B1 (ix2 g (0 : Fin 1))) 0)
        + B2 (ix2 o (0 : Fin 1)) := by
  unfold k0_pay1
  simp only [shapeCast_self]
  rw [addf_apply, PlainProduct.matmul_zero_apply _ dot2_plain, broadcastTo_a1_ab_apply]
  refine congrArg (· + B2 (ix2 o (0 : Fin 1))) (Finset.sum_congr rfl fun g _ => ?_)
  rw [maximumf_apply, addf_apply, PlainProduct.matmul_zero_apply _ dot1_plain, broadcastTo_a1_ab_apply, broadcast_apply]
  show _ * max _ (Ideal.ofBits .f32 0x00000000#32) = _
  rw [Ideal.ofBits_zero_f32]

end Cert.ReferenceIdeal.Body

end
-- ==== Proof.RefBlocks.lean ====
/-
  The lane-major program's grid: what each point's blocks are, and what a point writes back, entry by entry.

  256 points; every point stages the packed parameter table P (16 × 15) whole — rows 0…13 hold the first layer's matrix
  in columns 0…13 and its bias in column 14, rows 14, 15 the second layer's — and point `t` stages columns
  `2048 t … 2048 t + 2047` of the transposed batch XT (14 rows) and writes back the same columns of the transposed
  result (2 rows). Entry `(o, q)` of what point `t` writes back is, with `n = 2048 t + q`,
    ∑ g, P (14 + o, g) · max (∑ f, P (g, f) · XT (f, n) + P (g, 14)) 0 + P (14 + o, 14).
  The 256 column blocks cover the transposed result.
-/
import proofs.«138307_g2000009308301071_pallasbulk_1338_2_alg».proof.Proof.Gen.ReferenceIdeal.Frame
import proofs.«138307_g2000009308301071_pallasbulk_1338_2_alg».proof.Proof.RefBody
import Idealize.ShloMosaic.Lib.ValueIdx
import Idealize.ShloMosaic.Lib.Pipeline.Value

set_option maxRecDepth 16384

noncomputable section

open scoped BigOperators

namespace Cert.ReferenceIdeal.Blocks

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ)

/-- The arrays as the region finds them, as functions of an index into extended reals: the parameter table and the
    transposed batch. -/
abbrev aP (c : Dev nD) : S16x15.Idx → EReal := V m c main_v17
abbrev aXT (c : Dev nD) : S14x524288.Idx → EReal := V m c main_v0

theorem hz : (![0, 0] : Fin 2 → Nat) = fun _ => 0 := funext fun a => by fin_cases a <;> rfl

/-- Row `g` of the table, for a first-layer unit `g`. -/
abbrev rowU (g : Fin 14) : Fin 16 := ⟨g.val, by have := g.isLt; omega⟩
/-- Row `14 + o` of the table, for an output `o`. -/
abbrev rowO (o : Fin 2) : Fin 16 := ⟨14 + o.val, by have := o.isLt; omega⟩
/-- Column `f` of the table, for a feature or unit `f`. -/
abbrev colF (f : Fin 14) : Fin 15 := ⟨f.val, by have := f.isLt; omega⟩
/-- The table's bias column. -/
abbrev colB : Fin 15 := ⟨14, by decide⟩

variable (P : Vec Ideal S16x15 .f32)

/-- The body's four loads from the table, read at an entry. -/
theorem ld_w1 (g f : Fin 14) : View.ld P r0_0 (ix2 g f) = P (ix2 (rowU g) (colF f)) := by
  show P (r0_0.idx _) = P _
  congr 1
  funext a
  apply Fin.ext
  match a with
  | ⟨0, _⟩ => show 0 + 1 * g.val = g.val; omega
  | ⟨1, _⟩ => show 0 + 1 * f.val = f.val; omega
theorem ld_b1 (g : Fin 14) : View.ld P r0_1 (ix2 g (0 : Fin 1)) = P (ix2 (rowU g) colB) := by
  show P (r0_1.idx _) = P _
  congr 1
  funext a
  apply Fin.ext
  match a with
  | ⟨0, _⟩ => show 0 + 1 * g.val = g.val; omega
  | ⟨1, _⟩ => show 14 + 1 * 0 = 14; omega
theorem ld_w2 (o : Fin 2) (g : Fin 14) : View.ld P r0_2 (ix2 o g) = P (ix2 (rowO o) (colF g)) := by
  show P (r0_2.idx _) = P _
  congr 1
  funext a
  apply Fin.ext
  match a with
  | ⟨0, _⟩ => show 14 + 1 * o.val = 14 + o.val; omega
  | ⟨1, _⟩ => show 0 + 1 * g.val = g.val; omega
theorem ld_b2 (o : Fin 2) : View.ld P r0_3 (ix2 o (0 : Fin 1)) = P (ix2 (rowO o) colB) := by
  show P (r0_3.idx _) = P _
  congr 1
  funext a
  apply Fin.ext
  match a with
  | ⟨0, _⟩ => show 14 + 1 * o.val = 14 + o.val; omega
  | ⟨1, _⟩ => show 14 + 1 * 0 = 14; omega

/-- The printed index maps over the grid: the table sits at block (0, 0) at every point, the transposed batch and the
    transposed result at block (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The table's block is the table. -/
theorem iblk0_apply (c : Dev nD) (t : Fin cfg0.N) (y : S16x15.Idx) :
    (iblk m c 0 t : Vec Ideal S16x15 .f32) y = aP m c y := by
  obtain ⟨e0, e1, -⟩ := idx_facts t
  unfold iblk
  rw [View.read_apply]
  show V m c main_v17 _ = V m c main_v17 _
  congr 1
  funext a
  apply Fin.ext
  match a with
  | ⟨0, _⟩ => show win0_0.index t (0 : Fin 2) * 16 + 1 * (y 0).val = (y 0).val; rw [e0]; omega
  | ⟨1, _⟩ => show win0_0.index t (1 : Fin 2) * 15 + 1 * (y 1).val = (y 1).val; rw [e1]; omega

/-- The transposed batch's block at point `t` is its columns `2048 t … 2048 t + 2047`. -/
theorem iblk1_apply (c : Dev nD) (t : Fin cfg0.N) (f : Fin 14) (q : Fin 2048) (n : Fin 524288)
    (hn : n.val = t.val * 2048 + q.val) :
    (iblk m c 1 t : Vec Ideal S14x2048 .f32) (ix2 f q) = aXT m c (ix2 f n) := by
  obtain ⟨-, -, e0, e1, -⟩ := idx_facts t
  unfold iblk
  rw [View.read_apply]
  show V m c main_v0 _ = V m c main_v0 _
  congr 1
  funext a
  apply Fin.ext
  match a with
  | ⟨0, _⟩ => show win0_1.index t (0 : Fin 2) * 14 + 1 * f.val = f.val; rw [e0]; omega
  | ⟨1, _⟩ => show win0_1.index t (1 : Fin 2) * 2048 + 1 * q.val = n.val; rw [e1, hn]; omega

/-- Entry `(o, q)` of what point `t` leaves in the result's staging buffer, over the arrays as the region finds them. -/
theorem after_apply (c : Dev nD) (t : Fin cfg0.N) (o : Fin 2) (q : Fin 2048) (n : Fin 524288)
    (hn : n.val = t.val * 2048 + q.val) :
    ((dats m 0 c).after 2 t : Vec Ideal S2x2048 .f32) (ix2 o q)
      = (∑ g : Fin 14, aP m c (ix2 (rowO o) (colF g))
          * max ((∑ f : Fin 14, aP m c (ix2 (rowU g) (colF f))
              * aXT m c (ix2 f n))
            + aP m c (ix2 (rowU g) colB)) 0)
        + aP m c (ix2 (rowO o) colB) := by
  rw [after0_2]
  unfold out0_2
  rw [View.canon_unit_zero hz]
  simp only [View.ld_unit_zero (S := S14x2048) hz]
  refine (Body.pay_apply (View.ld (iblk m c 0 t) r0_0) (View.ld (iblk m c 0 t) r0_1) (View.ld (iblk m c 0 t) r0_2)
    (View.ld (iblk m c 0 t) r0_3) (iblk m c 1 t) o q).trans ?_
  rw [ld_b2 (iblk m c 0 t) o, iblk0_apply m c t]
  refine congrArg (· + aP m c (ix2 (rowO o) colB)) (Finset.sum_congr rfl fun g _ => ?_)
  rw [ld_w2 (iblk m c 0 t) o g, iblk0_apply m c t, ld_b1 (iblk m c 0 t) g, iblk0_apply m c t]
  refine congrArg (fun s => aP m c (ix2 (rowO o) (colF g))
    * max (s + aP m c (ix2 (rowU g) colB)) 0) (Finset.sum_congr rfl fun f _ => ?_)
  rw [ld_w1 (iblk m c 0 t) g f, iblk0_apply m c t, iblk1_apply m c t f q n hn]

/-- An index of the transposed result is in point `t`'s block iff its column is in `2048 t … 2048 t + 2047`. -/
theorem mem_blk (t : Fin cfg0.N) (i : S2x524288.Idx) :
    i ∈ ((cfg0.win 2).blk t).view.set ↔ ∀ a : Fin 2, win0_2.index t a * S2x2048.size a ≤ (i a).val ∧ (i a).val < win0_2.index t a * S2x2048.size a + S2x2048.size a := by
  show i ∈ ((View.whole main_v18).slice (win0_2.rect t)).set ↔ _
  rw [View.set_slice_whole, Rect.mem_set_unit]
  exact Iff.rfl

/-- Every index of the transposed result is in the block of the point its column falls in. -/
theorem cover (i : S2x524288.Idx) :
    ∃ t : Fin cfg0.N, (cfg0.win 2).flush t = true ∧ i ∈ ((cfg0.win 2).blk t).view.set := by
  have hi0 : (i 0).val < 2 := (i 0).isLt
  have hi1 : (i 1).val < 524288 := (i 1).isLt
  have hN : cfg0.N = 256 := N_0
  let t : Fin cfg0.N := ⟨(i 1).val / 2048, by rw [hN]; omega⟩
  obtain ⟨-, -, -, -, e0, e1⟩ := idx_facts t
  refine ⟨t, flush0_2 t, ?_⟩
  rw [mem_blk]
  intro a
  match a with
  | ⟨0, _⟩ =>
    show win0_2.index t (0 : Fin 2) * 2 ≤ (i 0).val ∧ (i 0).val < win0_2.index t (0 : Fin 2) * 2 + 2
    rw [e0]; omega
  | ⟨1, _⟩ =>
    show win0_2.index t (1 : Fin 2) * 2048 ≤ (i 1).val ∧ (i 1).val < win0_2.index t (1 : Fin 2) * 2048 + 2048
    rw [e1]; show (i 1).val / 2048 * 2048 ≤ (i 1).val ∧ (i 1).val < (i 1).val / 2048 * 2048 + 2048; omega

end Cert.ReferenceIdeal.Blocks

end
-- ==== Proof.LibScatterSet.lean ====
/-
  A set-scatter read at an index.

  A scatter whose body returns the update's element ("set") is a left fold, over the update indices in row-major
  order, of steps that each replace one element of the operand — the one the update index lands at (its start read off
  the index words plus its window coordinate, when that is inside the operand). When every update index `j` lands
  inside, at `ρ j`, and `ρ` is injective, the order of the fold does not matter:
    • at `ρ j` the result holds the update's element at `j`  (`Host.scatter_set_hit`),
    • at an index no update lands at it holds the operand's element  (`Host.scatter_set_miss`).
  Both by induction on the folded list, stated for any list without repeats. `ScatterDims.resultIdx?_eq_some` gives the
  landing place from one equation per axis: start plus window coordinate equals the coordinate.
-/
import Idealize.ShloMosaic.PureOps.ShapeOps
import Idealize.ShloMosaic.PureOps.Dims

namespace Idealize.ShloMosaic

section ScatterSet
variable {α : Type} {s si u : Shape} {w : Nat}

/-- Folding the replacement steps over a list none of whose members lands at `i'` leaves the element at `i'`. -/
private theorem foldl_set_miss (upd : u.Idx → α) (ρ : u.Idx → s.Idx) (i' : s.Idx) :
    ∀ (l : List (Fin u.numel)) (x : s.Idx → α), (∀ n ∈ l, ρ (u.rowMajor.symm n) ≠ i') →
      l.foldl (fun r n => fun i'' => if i'' = ρ (u.rowMajor.symm n) then upd (u.rowMajor.symm n) else r i'') x i' = x i'
  | [], _, _ => rfl
  | a :: l, x, h => by
    rw [List.foldl_cons, foldl_set_miss upd ρ i' l _ (fun n hn => h n (List.mem_cons_of_mem _ hn))]
    exact if_neg (fun e => h a (List.mem_cons_self ..) e.symm)

/-- Folding the replacement steps over a list without repeats, `ρ` injective: at the place a member lands,
    the result holds that member's update. -/
private theorem foldl_set_hit (upd : u.Idx → α) (ρ : u.Idx → s.Idx) (hinj : Function.Injective ρ) (n₀ : Fin u.numel) :
    ∀ (l : List (Fin u.numel)) (x : s.Idx → α), l.Nodup → n₀ ∈ l →
      l.foldl (fun r n => fun i'' => if i'' = ρ (u.rowMajor.symm n) then upd (u.rowMajor.symm n) else r i'') x
        (ρ (u.rowMajor.symm n₀)) = upd (u.rowMajor.symm n₀)
  | [], _, _, h => absurd h (List.not_mem_nil)
  | a :: l, x, hnd, h => by
    rw [List.foldl_cons]
    rcases List.mem_cons.1 h with rfl | hl
    · rw [foldl_set_miss upd ρ _ l _ (fun n hn e => by
        have : n = n₀ := u.rowMajor.symm.injective (hinj e)
        exact (List.nodup_cons.1 hnd).1 (this ▸ hn))]
      exact if_pos rfl
    · exact foldl_set_hit upd ρ hinj n₀ l _ (List.nodup_cons.1 hnd).2 hl

/-- A set-scatter (body: the update's element) all of whose update indices land inside the operand, at pairwise
    distinct places `ρ j`: at `ρ j` the result is the update's element at `j`. -/
theorem Host.scatter_set_hit (d : ScatterDims s si u) (x : s.Idx → α) (idx : IVec si w) (upd : u.Idx → α)
    (ρ : u.Idx → s.Idx) (hρ : ∀ j, d.resultIdx? j idx = some (ρ j)) (hinj : Function.Injective ρ) (j : u.Idx) :
    Host.scatter d (fun _ b => b) x idx upd (ρ j) = upd j := by
  unfold Host.scatter
  simp only [hρ]
  have := foldl_set_hit upd ρ hinj (u.rowMajor j) (List.finRange u.numel) x (List.nodup_finRange _) (List.mem_finRange _)
  rwa [Equiv.symm_apply_apply] at this

/-- The same scatter away from every place an update lands: the operand's element. -/
theorem Host.scatter_set_miss (d : ScatterDims s si u) (x : s.Idx → α) (idx : IVec si w) (upd : u.Idx → α)
    (ρ : u.Idx → s.Idx) (hρ : ∀ j, d.resultIdx? j idx = some (ρ j)) (i' : s.Idx) (h : ∀ j, ρ j ≠ i') :
    Host.scatter d (fun _ b => b) x idx upd i' = x i' := by
  unfold Host.scatter
  simp only [hρ]
  exact foldl_set_miss upd ρ i' _ x (fun n _ => h _)

end ScatterSet

end Idealize.ShloMosaic

namespace Idealize.ShloMosaic

/-- An update index lands at `i` when on every axis the start read off the indices plus the window coordinate
    is `i`'s coordinate. -/
theorem ScatterDims.resultIdx?_eq_some {s si u : Shape} {w : Nat} (d : ScatterDims s si u) (j : u.Idx) (idx : IVec si w)
    (i : s.Idx) (h : ∀ a, d.start j idx a + (d.window j a : Int) = ((i a).val : Int)) :
    d.resultIdx? j idx = some i := by
  unfold ScatterDims.resultIdx?
  rw [dif_pos (fun a => by rw [h a]; exact ⟨Int.natCast_nonneg _, Int.ofNat_lt.2 (i a).isLt⟩)]
  refine congrArg some (funext fun a => Fin.ext ?_)
  show (d.start j idx a + (d.window j a : Int)).toNat = (i a).val
  rw [h a]; rfl

end Idealize.ShloMosaic
-- ==== Proof.RefOperands.lean ====
import proofs.«138307_g2000009308301071_pallasbulk_1338_2_alg».proof.Proof.Gen.ReferenceIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import proofs.«138307_g2000009308301071_pallasbulk_1338_2_alg».proof.Proof.LibScatterSet

noncomputable section
open Idealize.ShloMosaic Idealize.ShloMosaic.TcCoe Idealize.SL.Sem
open Idealize.ShloMosaic.ValueIdx

/-!
# The reference's operands as its region finds them

Before its one region the reference transposes the activations and packs the four parameter arrays into one
16×15 array: zeros, then four set-scatters, each writing a whole block at a literal start —
the 14×14 weights at (0, 0), the 14 biases as column 14 of rows 0..13, the 2×14 weights at (14, 0), the 2 biases as
column 14 of rows 14..15.

A set-scatter all of whose update indices `j` land inside the operand, at pairwise distinct places `ρ j`, holds the
update's element at `ρ j` and the operand's element away from every `ρ j` (the imported general lemmas). The first
section here computes `ρ` for the four scatters from the literal index words (start plus window coordinate on each
axis), and the second reads the packed array block by block: a later scatter leaves an earlier block alone because its
landing places differ from the block's in one coordinate.
-/

namespace Cert.ReferenceIdeal.Operands
open Cert.ReferenceIdeal Cert.ReferenceIdeal.Gen

/-- The two index words of a scatter, as the program builds them: two broadcast integer constants, concatenated. -/
abbrev idxWords (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

theorem idxWords_zero (a b : BitVec 32) (k : S2.Idx) (hk : (k 0).val = 0) : idxWords a b k = a := by
  unfold idxWords
  rw [concatenate_pair_apply_left (0 : Fin S2.rank) _ _ concatenates_S1_S1_S2_d0 k rfl (ix1 0)
    (fun b => match b with | ⟨0, _⟩ => hk.symm)]
  rfl

theorem idxWords_one (a b : BitVec 32) (k : S2.Idx) (hk : (k 0).val = 1) : idxWords a b k = b := by
  unfold idxWords
  rw [concatenate_pair_apply_right (0 : Fin S2.rank) _ _ concatenates_S1_S1_S2_d0 k rfl rfl (ix1 0)
    (fun b hb => match b, hb with | ⟨0, _⟩, hb => absurd rfl hb) (by rw [hk]; rfl)]
  rfl

/-! ### The first scatter: the 14×14 block at (0, 0) -/

/-- Where the first block's element `(g, f)` lands. -/
def ρ1 (j : S14x14.Idx) : S16x15.Idx := ix2 (Fin.castLE (by decide) (j 0) : Fin 16) (Fin.castLE (by decide) (j 1) : Fin 15)

theorem res1 (j : S14x14.Idx) :
    scatter_S16x15_S2_S14x14_01_n_01_0.resultIdx? j (idxWords 0#32 0#32) = some (ρ1 j) := by
  refine ScatterDims.resultIdx?_eq_some _ j _ _ fun a => ?_
  match a with
  | ⟨0, _⟩ =>
    show ((idxWords 0#32 0#32) (scatter_S16x15_S2_S14x14_01_n_01_0.siIdx j ⟨0, by decide⟩)).toInt + ((j 0).val : Int) = ((j 0).val : Int)
    rw [idxWords_zero _ _ _ rfl]
    show (0 : Int) + _ = _
    omega
  | ⟨1, _⟩ =>
    show ((idxWords 0#32 0#32) (scatter_S16x15_S2_S14x14_01_n_01_0.siIdx j ⟨1, by decide⟩)).toInt + ((j 1).val : Int) = ((j 1).val : Int)
    rw [idxWords_one _ _ _ rfl]
    show (0 : Int) + _ = _
    omega

/-! ### The second scatter: the 14-vector as column 14 of rows 0..13 -/

/-- Where the first bias's element `g` lands. -/
def ρ2 (j : S14.Idx) : S16x15.Idx := ix2 (Fin.castLE (by decide) (j 0) : Fin 16) (14 : Fin 15)

theorem res2 (j : S14.Idx) :
    scatter_S16x15_S2_S14_0_1_01_0.resultIdx? j (idxWords 0#32 14#32) = some (ρ2 j) := by
  refine ScatterDims.resultIdx?_eq_some _ j _ _ fun a => ?_
  match a with
  | ⟨0, _⟩ =>
    show ((idxWords 0#32 14#32) (scatter_S16x15_S2_S14_0_1_01_0.siIdx j ⟨0, by decide⟩)).toInt + ((j 0).val : Int) = ((j 0).val : Int)
    rw [idxWords_zero _ _ _ rfl]
    show (0 : Int) + _ = _
    omega
  | ⟨1, _⟩ =>
    show ((idxWords 0#32 14#32) (scatter_S16x15_S2_S14_0_1_01_0.siIdx j ⟨1, by decide⟩)).toInt + ((0 : Nat) : Int) = ((14 : Nat) : Int)
    rw [idxWords_one _ _ _ rfl]
    show (14 : Int) + _ = _
    omega

/-! ### The third scatter: the 2×14 block at (14, 0) -/

/-- Where the second block's element `(o, f)` lands. -/
def ρ3 (j : S2x14.Idx) : S16x15.Idx :=
  ix2 (⟨14 + (j 0).val, by have := idx2_lt0 j; omega⟩ : Fin 16) (Fin.castLE (by decide) (j 1) : Fin 15)

theorem res3 (j : S2x14.Idx) :
    scatter_S16x15_S2_S2x14_01_n_01_0.resultIdx? j (idxWords 14#32 0#32) = some (ρ3 j) := by
  refine ScatterDims.resultIdx?_eq_some _ j _ _ fun a => ?_
  match a with
  | ⟨0, _⟩ =>
    show ((idxWords 14#32 0#32) (scatter_S16x15_S2_S2x14_01_n_01_0.siIdx j ⟨0, by decide⟩)).toInt + ((j 0).val : Int) = ((14 + (j 0).val : Nat) : Int)
    rw [idxWords_zero _ _ _ rfl]
    show (14 : Int) + _ = _
    omega
  | ⟨1, _⟩ =>
    show ((idxWords 14#32 0#32) (scatter_S16x15_S2_S2x14_01_n_01_0.siIdx j ⟨1, by decide⟩)).toInt + ((j 1).val : Int) = ((j 1).val : Int)
    rw [idxWords_one _ _ _ rfl]
    show (0 : Int) + _ = _
    omega

/-! ### The fourth scatter: the 2-vector as column 14 of rows 14..15 -/

/-- Where the second bias's element `o` lands. -/
def ρ4 (j : S2.Idx) : S16x15.Idx :=
  ix2 (⟨14 + (j 0).val, by have : (j 0).val < 2 := (j 0).isLt; omega⟩ : Fin 16) (14 : Fin 15)

theorem res4 (j : S2.Idx) :
    scatter_S16x15_S2_S2_0_1_01_0.resultIdx? j (idxWords 14#32 14#32) = some (ρ4 j) := by
  refine ScatterDims.resultIdx?_eq_some _ j _ _ fun a => ?_
  match a with
  | ⟨0, _⟩ =>
    show ((idxWords 14#32 14#32) (scatter_S16x15_S2_S2_0_1_01_0.siIdx j ⟨0, by decide⟩)).toInt + ((j 0).val : Int) = ((14 + (j 0).val : Nat) : Int)
    rw [idxWords_zero _ _ _ rfl]
    show (14 : Int) + _ = _
    omega
  | ⟨1, _⟩ =>
    show ((idxWords 14#32 14#32) (scatter_S16x15_S2_S2_0_1_01_0.siIdx j ⟨1, by decide⟩)).toInt + ((0 : Nat) : Int) = ((14 : Nat) : Int)
    rw [idxWords_one _ _ _ rfl]
    show (14 : Int) + _ = _
    omega

/-! ### The landing places are pairwise distinct within a scatter -/

theorem ρ1_inj : Function.Injective ρ1 := fun j j' h => by
  have h0 : (j 0).val = (j' 0).val := congrArg (fun i : S16x15.Idx => (i 0).val) h
  have h1 : (j 1).val = (j' 1).val := congrArg (fun i : S16x15.Idx => (i 1).val) h
  funext a
  match a with
  | ⟨0, _⟩ => exact Fin.ext h0
  | ⟨1, _⟩ => exact Fin.ext h1

theorem ρ2_inj : Function.Injective ρ2 := fun j j' h => by
  have h0 : (j 0).val = (j' 0).val := congrArg (fun i : S16x15.Idx => (i 0).val) h
  funext a
  match a with
  | ⟨0, _⟩ => exact Fin.ext h0

theorem ρ3_inj : Function.Injective ρ3 := fun j j' h => by
  have h0 : 14 + (j 0).val = 14 + (j' 0).val := congrArg (fun i : S16x15.Idx => (i 0).val) h
  have h1 : (j 1).val = (j' 1).val := congrArg (fun i : S16x15.Idx => (i 1).val) h
  funext a
  match a with
  | ⟨0, _⟩ => exact Fin.ext (Nat.add_left_cancel h0)
  | ⟨1, _⟩ => exact Fin.ext h1

theorem ρ4_inj : Function.Injective ρ4 := fun j j' h => by
  have h0 : 14 + (j 0).val = 14 + (j' 0).val := congrArg (fun i : S16x15.Idx => (i 0).val) h
  funext a
  match a with
  | ⟨0, _⟩ => exact Fin.ext (Nat.add_left_cancel h0)

/-! ### The packed parameters, stage by stage -/

variable (m : (ℓ : Loc nD τ sig) → Buf (Elt Ideal) ℓ) (c : Dev nD)

/-- The zeros the parameters start from. -/
abbrev P0 : S16x15.Idx → EReal :=
  broadcastInDim S16x15 ![] bcast_S_S16x15 (constant (F := Ideal) S_ .f32 0x00000000#32)
/-- After the first block is set. -/
abbrev P1 : S16x15.Idx → EReal :=
  Host.scatter scatter_S16x15_S2_S14x14_01_n_01_0 (fun _ b => b) P0 (idxWords 0#32 0#32)
    (m (c, Proc.devRef .tc main_arg1) : S14x14.Idx → EReal)
/-- After the first bias is set. -/
abbrev P2 : S16x15.Idx → EReal :=
  Host.scatter scatter_S16x15_S2_S14_0_1_01_0 (fun _ b => b) (P1 m c) (idxWords 0#32 14#32)
    (m (c, Proc.devRef .tc main_arg2) : S14.Idx → EReal)
/-- After the second block is set. -/
abbrev P3 : S16x15.Idx → EReal :=
  Host.scatter scatter_S16x15_S2_S2x14_01_n_01_0 (fun _ b => b) (P2 m c) (idxWords 14#32 0#32)
    (m (c, Proc.devRef .tc main_arg3) : S2x14.Idx → EReal)
/-- After the second bias is set: the packed parameters. -/
abbrev P4 : S16x15.Idx → EReal :=
  Host.scatter scatter_S16x15_S2_S2_0_1_01_0 (fun _ b => b) (P3 m c) (idxWords 14#32 14#32)
    (m (c, Proc.devRef .tc main_arg4) : S2.Idx → EReal)

set_option maxHeartbeats 1000000 in
/-- The parameters the region finds are the four scatters composed. -/
theorem V17_eq : (V m c main_v17 : S16x15.Idx → EReal) = P4 m c := by
  show StableHlo.after hostOps0 (fun b => m (c, b)) (Proc.devRef .tc main_v17) = _
  after_results

/-- The transposed activations the region finds. -/
theorem V0_eq : (V m c main_v0 : S14x524288.Idx → EReal)
    = transpose S14x524288 [1, 0] (m (c, Proc.devRef .tc main_arg0) : S524288x14.Idx → EReal)
        transposes_S524288x14_S14x524288_1_0 := by
  show StableHlo.after hostOps0 (fun b => m (c, b)) (Proc.devRef .tc main_v0) = _
  after_results

theorem xT_apply (f : Fin 14) (n : Fin 524288) :
    (V m c main_v0 : S14x524288.Idx → EReal) (ix2 f n)
      = (m ((c : Thread nD τ).loc main_arg0) : S524288x14.Idx → EReal) (ix2 n f) := by
  rw [V0_eq]
  exact transpose_ix2_apply _ _ f n

/-! ### Reading the stages -/

/-- The fourth scatter writes column 14 only. -/
theorem P4_of_col (a : Fin 16) (b : Fin 15) (hb : b.val < 14) : P4 m c (ix2 a b) = P3 m c (ix2 a b) :=
  Host.scatter_set_miss _ _ _ _ ρ4 res4 _ fun j e => by
    have h1 : (14 : Nat) = b.val := congrArg (fun i : S16x15.Idx => (i 1).val) e
    omega

/-- The fourth scatter writes rows 14 and 15 only. -/
theorem P4_of_row (a : Fin 16) (b : Fin 15) (ha : a.val < 14) : P4 m c (ix2 a b) = P3 m c (ix2 a b) :=
  Host.scatter_set_miss _ _ _ _ ρ4 res4 _ fun j e => by
    have h0 : 14 + (j 0).val = a.val := congrArg (fun i : S16x15.Idx => (i 0).val) e
    omega

/-- The third scatter writes rows 14 and 15 only. -/
theorem P3_of_row (a : Fin 16) (b : Fin 15) (ha : a.val < 14) : P3 m c (ix2 a b) = P2 m c (ix2 a b) :=
  Host.scatter_set_miss _ _ _ _ ρ3 res3 _ fun j e => by
    have h0 : 14 + (j 0).val = a.val := congrArg (fun i : S16x15.Idx => (i 0).val) e
    omega

/-- The second scatter writes column 14 only. -/
theorem P2_of_col (a : Fin 16) (b : Fin 15) (hb : b.val < 14) : P2 m c (ix2 a b) = P1 m c (ix2 a b) :=
  Host.scatter_set_miss _ _ _ _ ρ2 res2 _ fun j e => by
    have h1 : (14 : Nat) = b.val := congrArg (fun i : S16x15.Idx => (i 1).val) e
    omega

theorem params_w1 (a : Fin 16) (b : Fin 15) (g f : Fin 14) (ha : a.val = g.val) (hb : b.val = f.val) :
    (V m c main_v17 : S16x15.Idx → EReal) (ix2 a b)
      = (m ((c : Thread nD τ).loc main_arg1) : S14x14.Idx → EReal) (ix2 g f) := by
  have hg := g.isLt
  have hf := f.isLt
  rw [V17_eq, P4_of_col m c a b (by omega), P3_of_row m c a b (by omega), P2_of_col m c a b (by omega)]
  have e : (ix2 a b : S16x15.Idx) = ρ1 (ix2 g f) := by
    funext k
    match k with
    | ⟨0, _⟩ => exact Fin.ext ha
    | ⟨1, _⟩ => exact Fin.ext hb
  rw [e]
  exact Host.scatter_set_hit _ _ _ _ ρ1 res1 ρ1_inj (ix2 g f)

theorem params_b1 (a : Fin 16) (b : Fin 15) (g : Fin 14) (ha : a.val = g.val) (hb : b.val = 14) :
    (V m c main_v17 : S16x15.Idx → EReal) (ix2 a b)
      = (m ((c : Thread nD τ).loc main_arg2) : S14.Idx → EReal) (ix1 g) := by
  have hg := g.isLt
  rw [V17_eq, P4_of_row m c a b (by omega), P3_of_row m c a b (by omega)]
  have e : (ix2 a b : S16x15.Idx) = ρ2 (ix1 g) := by
    funext k
    match k with
    | ⟨0, _⟩ => exact Fin.ext ha
    | ⟨1, _⟩ => exact Fin.ext hb
  rw [e]
  exact Host.scatter_set_hit _ _ _ _ ρ2 res2 ρ2_inj (ix1 g)

theorem params_w2 (a : Fin 16) (b : Fin 15) (o : Fin 2) (f : Fin 14) (ha : a.val = 14 + o.val) (hb : b.val = f.val) :
    (V m c main_v17 : S16x15.Idx → EReal) (ix2 a b)
      = (m ((c : Thread nD τ).loc main_arg3) : S2x14.Idx → EReal) (ix2 o f) := by
  have hf := f.isLt
  rw [V17_eq, P4_of_col m c a b (by omega)]
  have e : (ix2 a b : S16x15.Idx) = ρ3 (ix2 o f) := by
    funext k
    match k with
    | ⟨0, _⟩ => exact Fin.ext ha
    | ⟨1, _⟩ => exact Fin.ext hb
  rw [e]
  exact Host.scatter_set_hit _ _ _ _ ρ3 res3 ρ3_inj (ix2 o f)

theorem params_b2 (a : Fin 16) (b : Fin 15) (o : Fin 2) (ha : a.val = 14 + o.val) (hb : b.val = 14) :
    (V m c main_v17 : S16x15.Idx → EReal) (ix2 a b)
      = (m ((c : Thread nD τ).loc main_arg4) : S2.Idx → EReal) (ix1 o) := by
  rw [V17_eq]
  have e : (ix2 a b : S16x15.Idx) = ρ4 (ix1 o) := by
    funext k
    match k with
    | ⟨0, _⟩ => exact Fin.ext ha
    | ⟨1, _⟩ => exact Fin.ext hb
  rw [e]
  exact Host.scatter_set_hit _ _ _ _ ρ4 res4 ρ4_inj (ix1 o)

end Cert.ReferenceIdeal.Operands
end
-- ==== Proof.RefValue.lean ====
/-
  The lane-major program's result.

  The transposed result array ends holding, at row `o` and column `n`, output `o` of sample `n`: each point writes
  back its columns of that array (the body's entry over the parameter table and the transposed batch, read back to the
  arguments), and the points' column blocks cover it. The program's last line transposes it, so entry `(n, o)` of the
  result is output `o` of sample `n`.
-/
import proofs.«138307_g2000009308301071_pallasbulk_1338_2_alg».proof.Proof.Gen.ReferenceIdeal.Frame
import proofs.«138307_g2000009308301071_pallasbulk_1338_2_alg».proof.Proof.RefBlocks
import proofs.«138307_g2000009308301071_pallasbulk_1338_2_alg».proof.Proof.RefOperands
import proofs.«138307_g2000009308301071_pallasbulk_1338_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.ReferenceIdeal.Result

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg)

/-- The argument arrays as launched, as functions of an index into extended reals. -/
abbrev ax (c : Dev nD) : S524288x14.Idx → EReal := m ((c : Thread nD τ).loc main_arg0)
abbrev aw1 (c : Dev nD) : S14x14.Idx → EReal := m ((c : Thread nD τ).loc main_arg1)
abbrev ab1 (c : Dev nD) : S14.Idx → EReal := m ((c : Thread nD τ).loc main_arg2)
abbrev aw2 (c : Dev nD) : S2x14.Idx → EReal := m ((c : Thread nD τ).loc main_arg3)
abbrev ab2 (c : Dev nD) : S2.Idx → EReal := m ((c : Thread nD τ).loc main_arg4)

/-- The transposed result: row `o`, column `n` holds output `o` of sample `n`. -/
def lanes (c : Dev nD) : S2x524288.Idx → EReal := fun i =>
  Mlp.outAt (ax m c) (aw1 m c) (ab1 m c) (aw2 m c) (ab2 m c) (i 1) (i 0)

/-- What point `t` writes back is its column block of the transposed result. -/
theorem flushed_eq (c : Dev nD) (t : Fin cfg0.N) :
    (dats m 0 c).flushed 2 t = ((cfg0.win 2).blk t).view.read (Elt Ideal) (lanes m c) := by
  show (cfg0.win 2).cut (grid0.coords t) ((dats m 0 c).after 2 t) = _
  funext y
  obtain ⟨o, q, rfl⟩ : ∃ (o : Fin 2) (q : Fin 2048), y = ix2 o q := ⟨y 0, y 1, eq_ix2 y⟩
  have hN : cfg0.N = 256 := N_0
  have ht : t.val < 256 := hN ▸ t.isLt
  have hq := q.isLt
  let n : Fin 524288 := ⟨t.val * 2048 + q.val, by omega⟩
  have hemb : ((cfg0.win 2).blk t).view.emb (ix2 o q) = ix2 o n := by
    obtain ⟨-, -, -, -, e0, e1⟩ := Blocks.idx_facts t
    funext a
    apply Fin.ext
    match a with
    | ⟨0, _⟩ => show win0_2.index t (0 : Fin 2) * 2 + 1 * o.val = o.val; rw [e0]; omega
    | ⟨1, _⟩ => show win0_2.index t (1 : Fin 2) * 2048 + 1 * q.val = t.val * 2048 + q.val; rw [e1]; omega
  show ((dats m 0 c).after 2 t : Vec Ideal S2x2048 .f32) (ix2 o q) = lanes m c (((cfg0.win 2).blk t).view.emb (ix2 o q))
  rw [hemb, Blocks.after_apply m c t o q n rfl]
  exact Mlp.lane_entry (ax m c) (aw1 m c) (ab1 m c) (aw2 m c) (ab2 m c)
    (fun g f => Blocks.aP m c (ix2 (Blocks.rowU g) (Blocks.colF f))) (fun g => Blocks.aP m c (ix2 (Blocks.rowU g) Blocks.colB))
    (fun g => Blocks.aP m c (ix2 (Blocks.rowO o) (Blocks.colF g))) (Blocks.aP m c (ix2 (Blocks.rowO o) Blocks.colB))
    (fun f => Blocks.aXT m c (ix2 f n)) n o
    (fun g f => Operands.params_w1 m c _ _ g f rfl rfl)
    (fun g => Operands.params_b1 m c _ _ g rfl rfl)
    (fun g => Operands.params_w2 m c _ _ o g rfl rfl)
    (Operands.params_b2 m c _ _ o rfl rfl)
    (fun f => Operands.xT_apply m c f n)

/-- The transposed result array after the run. -/
theorem final (c : Dev nD) : (dats m 0 c).arrAt 2 cfg0.N = lanes m c :=
  (dats m 0 c).arrAt_eq_of_cover 2 (lanes m c) (fun t _ => flushed_eq m c t) Blocks.cover

/-- The last line's array: the transposed result transposed back, which is the perceptron's result array. -/
theorem tail_eq (c : Dev nD) :
    Pipeline.afterTail₀ cfgs (dats m) 0 (V0 m) [hostOps1] c main_v19
      = Mlp.out (ax m c) (aw1 m c) (ab1 m c) (aw2 m c) (ab2 m c) := by
  unfold Pipeline.afterTail₀
  show StableHlo.after hostOps1 _ (Proc.devRef .tc main_v19) = _
  after_results
  have e : Pipeline.withArrays (cfgs 0).spec c (V0 m c) (fun w => (dats m 0 c).arrAt w (cfgs 0).N) (Proc.tc.devRef main_v18)
      = lanes m c :=
    (Pipeline.withArrays_arr spec0 launch0.win.arr_inj c _ _ 2).trans (final m c)
  funext i
  show transpose S524288x2 [1, 0] (Pipeline.withArrays (cfgs 0).spec c (V0 m c) (fun w => (dats m 0 c).arrAt w (cfgs 0).N)
    (Proc.tc.devRef main_v18)) transposes_S2x524288_S524288x2_1_0 i = _
  rw [e]
  rw [transpose_apply [1, 0] (lanes m c) transposes_S2x524288_S524288x2_1_0 i (ix2 (i 1) (i 0)) (by
    intro b
    match b with
    | ⟨0, _⟩ => rfl
    | ⟨1, _⟩ => rfl)]
  rfl

/-- The run, read: the result array at the perceptron's result of the arguments, the arguments unchanged. -/
theorem run : θ_run defs (onTc (τ := τ) (main (F := Ideal))) ⟨m, fun _ => 0, ρ⟩ fun r => ∀ c : Dev nD,
      r.2.mem ((c.tc : Thread nD τ).loc main_v19) = Mlp.out (ax m c) (aw1 m c) (ab1 m c) (aw2 m c) (ab2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Result

end
-- ==== Proof.lean ====
/-
  Two programs for one two-layer perceptron  y = relu (x · W1ᵀ + b1) · W2ᵀ + b2  over 524288 samples of 14 features,
  14 hidden units and 2 outputs, are equal entry by entry on the extended reals.

  The first packs 16 samples into each row of a 32768 × 224 array and multiplies by block-diagonal weights (16 copies
  of W1ᵀ, then of W2ᵀ, on the diagonal, zeros elsewhere; the biases tiled 16 times), sixteen row blocks of 2048 packed
  rows at a time, and lays the packed 32768 × 32 result out as 524288 × 2. The second transposes the batch, packs the
  two layers into one 16 × 15 table, and works on 256 column blocks of 2048 samples, computing W1 · X + b1, the
  rectifier, W2 · H + b2, and transposes the 2 × 524288 result back.

  Both end at `Mlp.out` of the arguments (Proof/Spec.lean): entry (n, o) is
    ∑ g, max (∑ f, x (n, f) · w1 (g, f) + b1 g) 0 · w2 (o, g) + b2 o.
  For the packed program the sums over 224 = 16 · 14 packed columns collapse to sums over 14 because every term outside
  the diagonal block has the factor 0 (`Mlp.sum_packed`); for the lane-major program the factors of each product are
  in the other order. Neither step needs the inputs to be finite: `0 · y = 0`, `1 · y = y` and the commutativity of
  the product hold on every extended real, and the sums are taken over the same finite index sets.

  The three frames are the generated ones (each program's run terminates, faults nowhere and leaves its arguments as
  launched); the idealization rewrote nothing, so `preserves` is trivial.
-/
import proofs.«138307_g2000009308301071_pallasbulk_1338_2_alg».proof.Defs
import proofs.«138307_g2000009308301071_pallasbulk_1338_2_alg».proof.Proof.Gen.Kernel
import proofs.«138307_g2000009308301071_pallasbulk_1338_2_alg».proof.Proof.Gen.Kernel.Frame
import proofs.«138307_g2000009308301071_pallasbulk_1338_2_alg».proof.Proof.Gen.KernelIdeal
import proofs.«138307_g2000009308301071_pallasbulk_1338_2_alg».proof.Proof.Gen.KernelIdeal.Frame
import proofs.«138307_g2000009308301071_pallasbulk_1338_2_alg».proof.Proof.Gen.ReferenceIdeal
import proofs.«138307_g2000009308301071_pallasbulk_1338_2_alg».proof.Proof.Gen.ReferenceIdeal.Frame
import proofs.«138307_g2000009308301071_pallasbulk_1338_2_alg».proof.Proof.Gen.Pre_finite_inputs
import proofs.«138307_g2000009308301071_pallasbulk_1338_2_alg».proof.Proof.Spec
import proofs.«138307_g2000009308301071_pallasbulk_1338_2_alg».proof.Proof.KerValue
import proofs.«138307_g2000009308301071_pallasbulk_1338_2_alg».proof.Proof.RefValue
import Idealize.ShloMosaic.Adequacy
import Idealize.ShloMosaic.Init

noncomputable section

namespace Cert.Proof

open Idealize.ShloMosaic Idealize.ShloMosaic.TcCoe Idealize.SL.Sem

/-- The word-level packed program runs and leaves its arguments as launched. -/
theorem frame_k : Cert.frame_Kernel := fun m ρ _ => Cert.Kernel.Gen.frame m ρ
/-- So does the packed program read on the extended reals. -/
theorem frame_ki : Cert.frame_KernelIdeal := fun m ρ _ => Cert.KernelIdeal.Gen.frame m ρ
/-- So does the lane-major program. -/
theorem frame_ri : Cert.frame_ReferenceIdeal := fun m ρ _ => Cert.ReferenceIdeal.Gen.frame m ρ

/-- From memories that agree on the arguments both programs end with the perceptron's result array of those
    arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ?_) (Cert.ReferenceIdeal.Result.run m' ρ')
  obtain ⟨h0, h1, h2, h3, h4, h5⟩ := h c
  obtain ⟨a0, a1, a2, a3, a4⟩ := hagree c
  refine ⟨h0.trans ?_, h1, h2, h3, h4, h5⟩
  exact congr (congr (congr (congr (congrArg Cert.Mlp.out a0) a1) a2) a3) a4

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
